-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩
abbrev S800000x40 : Shape := ⟨2, ![800000, 40]⟩

abbrev nBuf : Space → Nat
  | .hbm => 61
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S1x40, .f32⟩
  | .hbm, ⟨42, _⟩ => ⟨S50000x40, .f32⟩
  | .hbm, ⟨43, _⟩ => ⟨S50000x40, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x40, .f32⟩
  | .hbm, ⟨53, _⟩ => ⟨S_, .f32⟩
  | .hbm, ⟨54, _⟩ => ⟨S50000x40, .f32⟩
  | .hbm, ⟨55, _⟩ => ⟨S800000x1, .i32⟩
  | .hbm, ⟨56, _⟩ => ⟨S50000x40, .f32⟩
  | .hbm, ⟨57, _⟩ => ⟨S50000x1, .f32⟩
  | .hbm, ⟨58, _⟩ => ⟨S50000x40, .f32⟩
  | .hbm, ⟨59, _⟩ => ⟨S50000x40, .f32⟩
  | .hbm, ⟨60, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x40, .f32⟩
  | .local _ .vmem, ⟨8, _⟩ => ⟨S1x40, .f32⟩
  | .local _ .vmem, ⟨9, _⟩ => ⟨S128x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x40.size a ≤ S128x40.size a
  hwx0_7 : ∀ i : grid0.Coords, EltTy.bits .f32 = 32 ∨ (Rect.block (s := S128x40) S128x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x40.size a ≤ S50000x40.size a
  hwx0_8 : ∀ i : grid0.Coords, EltTy.bits .f32 = 32 ∨ (Rect.block (s := S50000x40) S5000x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x40.size a ≤ S50000x40.size a
  hwx0_9 : ∀ i : grid0.Coords, EltTy.bits .f32 = 32 ∨ (Rect.block (s := S50000x40) S5000x40.size (cc0_transform_9 i) (hinb0_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_0) S5000x40.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v27_1) S5000x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x40, .f32⟩
  | .hbm, ⟨72, _⟩ => ⟨S1x40, .f32⟩
  | .hbm, ⟨73, _⟩ => ⟨S50000x40, .f32⟩
  | .hbm, ⟨74, _⟩ => ⟨S50000x40, .f32⟩
  | .hbm, ⟨75, _⟩ => ⟨S50000x40, .f32⟩
  | .hbm, ⟨76, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Body.lean ====
/-
  The kernel body's two stored values read at an entry, on the extended reals.

  From a block of 5000 rows of the aggregated mean `x0` and of the node features `x1`, the first-layer weights `x2`
  (for the mean) and `x4` (for the node itself) and the bias row `x3`, the body forms the hidden block
  `hid p k = max (∑ j, x0 (p, j) · x2 (j, k) + x3 (0, k) + ∑ j, x1 (p, j) · x4 (j, k)) 0` (the changes of float format
  are the identity here and a matrix product into a zero accumulator is the plain sum), and stores the two products
  of the hidden block with the second layer's weights: `hid ⬝ x5`, and `hid ⬝ x7` plus the bias row `x6`.
-/
import proofs.«138123_j30116310680318_2_alg».proof.Proof.Gen.KernelIdeal.Skeleton
import Idealize.ShloMosaic.Lib.ValueLayout
import Idealize.ShloMosaic.Lib.Pipeline.Value
import proofs.«138123_j30116310680318_2_alg».proof.Proof.LibPlainDot

noncomputable section

open scoped BigOperators

namespace Cert.Sage.Body

open Idealize.ShloMosaic Idealize.ShloMosaic.ValueIdx Cert.KernelIdeal Cert.KernelIdeal.Gen

/-- The hidden block's entry `(p, k)`. -/
def hid (x0 x1 : FVec Ideal S5000x128 .f32) (x2 x4 : FVec Ideal S128x128 .f32) (x3 : FVec Ideal S1x128 .f32)
    (p : Fin 5000) (k : Fin 128) : EReal :=
  max (∑ j : Fin 128, x0 (ix2 p j) * x2 (ix2 j k) + x3 (ix2 (0 : Fin 1) k) + ∑ j : Fin 128, x1 (ix2 p j) * x4 (ix2 j k)) 0

theorem pay1_apply (x0 x1 : FVec Ideal S5000x128 .f32) (x2 x4 : FVec Ideal S128x128 .f32) (x3 : FVec Ideal S1x128 .f32)
    (p : Fin 5000) (k : Fin 128) :
    k0_pay1 (F := Ideal) x0 x1 x2 x4 x3 (ix2 p k) = hid x0 x1 x2 x4 x3 p k := by
  unfold k0_pay1 hid
  refine congrArg₂ max (congrArg₂ (· + ·) (congrArg₂ (· + ·) ?_ ?_) ?_) Ideal.ofBits_zero_f32
  · refine (Cert.Lib.PlainDot.matmul_plain_zero_apply none _ _ p k).trans ?_
    rw [shapeCast_self]
    rfl
  · refine (broadcastTo_1b_ab_apply _ _ p k).trans ?_
    rw [shapeCast_self]
  · exact Cert.Lib.PlainDot.matmul_plain_zero_apply none _ _ p k

/-- The first stored value: the hidden block times the second layer's neighbour weights. -/
theorem pay2_apply (x0 x1 : FVec Ideal S5000x128 .f32) (x2 x4 : FVec Ideal S128x128 .f32) (x3 : FVec Ideal S1x128 .f32)
    (x5 : FVec Ideal S128x40 .f32) (p : Fin 5000) (c : Fin 40) :
    k0_pay2 (F := Ideal) x0 x1 x2 x4 x3 x5 (ix2 p c) = ∑ k : Fin 128, hid x0 x1 x2 x4 x3 p k * x5 (ix2 k c) := by
  unfold k0_pay2
  refine (Cert.Lib.PlainDot.matmul_plain_zero_apply none _ _ p c).trans ?_
  refine Finset.sum_congr rfl fun k _ => ?_
  rw [pay1_apply]
  rfl

/-- The second stored value: the hidden block times the second layer's own-node weights, plus the bias row. -/
theorem pay3_apply (x0 x1 : FVec Ideal S5000x128 .f32) (x2 x4 : FVec Ideal S128x128 .f32) (x3 : FVec Ideal S1x128 .f32)
    (x7 : FVec Ideal S128x40 .f32) (x6 : FVec Ideal S1x40 .f32) (p : Fin 5000) (c : Fin 40) :
    k0_pay3 (F := Ideal) x0 x1 x2 x4 x3 x7 x6 (ix2 p c)
      = ∑ k : Fin 128, hid x0 x1 x2 x4 x3 p k * x7 (ix2 k c) + x6 (ix2 (0 : Fin 1) c) := by
  unfold k0_pay3
  refine congrArg₂ (· + ·) ?_ ?_
  · refine (Cert.Lib.PlainDot.matmul_plain_zero_apply none _ _ p c).trans ?_
    refine Finset.sum_congr rfl fun k _ => ?_
    rw [pay1_apply]
    rfl
  · refine (broadcastTo_1b_ab_apply _ _ p c).trans ?_
    rw [shapeCast_self]

end Cert.Sage.Body

end
-- ==== Proof.Blocks.lean ====
/-
  From the blocks the body writes back to the two whole result arrays of the region.

  The region walks ten blocks of 5000 node rows. At each block the body reads the block's rows of the aggregated mean and
  of the node features and the whole of every weight and bias array, and writes back the block's rows of the two
  results. Row `r` of a result depends only on row `r` of the mean and of the features, so each result array ends, row by
  row, at one function of the arrays the region found: `toNeighbours` (the hidden row times the neighbour weights) and
  `ownTerm` (the hidden row times the own-node weights, plus the bias).
-/
import proofs.«138123_j30116310680318_2_alg».proof.Proof.Gen.KernelIdeal.Frame
import proofs.«138123_j30116310680318_2_alg».proof.Proof.Body

set_option maxRecDepth 16384

noncomputable section

open scoped BigOperators

namespace Cert.Sage.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage.Body

/-- The hidden row of node `r`, entry `k`, from whole arrays: the first layer applied to the mean row and the node's own row. -/
def hidden (M X : FVec Ideal S50000x128 .f32) (A B : FVec Ideal S128x128 .f32) (b : FVec Ideal S1x128 .f32)
    (r : Fin 50000) (k : Fin 128) : EReal :=
  max (∑ j : Fin 128, M (ix2 r j) * A (ix2 j k) + b (ix2 (0 : Fin 1) k) + ∑ j : Fin 128, X (ix2 r j) * B (ix2 j k)) 0

/-- What travels along the edges in the second layer: the hidden row times the neighbour weights. -/
def toNeighbours (M X : FVec Ideal S50000x128 .f32) (A B : FVec Ideal S128x128 .f32) (b : FVec Ideal S1x128 .f32)
    (W : FVec Ideal S128x40 .f32) : FVec Ideal S50000x40 .f32 :=
  fun i => ∑ k : Fin 128, hidden M X A B b (i 0) k * W (ix2 k (i 1))

/-- The node's own second-layer term: the hidden row times the own-node weights, plus the bias. -/
def ownTerm (M X : FVec Ideal S50000x128 .f32) (A B : FVec Ideal S128x128 .f32) (b : FVec Ideal S1x128 .f32)
    (W : FVec Ideal S128x40 .f32) (b' : FVec Ideal S1x40 .f32) : FVec Ideal S50000x40 .f32 :=
  fun i => ∑ k : Fin 128, hidden M X A B b (i 0) k * W (ix2 k (i 1)) + b' (ix2 (0 : Fin 1) (i 1))

/-- A block whose rows are rows of the whole arrays, beside the whole weight and bias arrays, has the whole arrays' hidden
    rows. -/
theorem hid_eq_hidden (M X : FVec Ideal S50000x128 .f32) (A B : FVec Ideal S128x128 .f32) (b : FVec Ideal S1x128 .f32)
    (x0 x1 : FVec Ideal S5000x128 .f32) (x2 x4 : FVec Ideal S128x128 .f32) (x3 : FVec Ideal S1x128 .f32)
    (r : Fin 50000) (p : Fin 5000)
    (h0 : ∀ j, x0 (ix2 p j) = M (ix2 r j)) (h1 : ∀ j, x1 (ix2 p j) = X (ix2 r j))
    (h2 : ∀ y, x2 y = A y) (h4 : ∀ y, x4 y = B y) (h3 : ∀ y, x3 y = b y) (k : Fin 128) :
    hid x0 x1 x2 x4 x3 p k = hidden M X A B b r k := by
  unfold hid hidden
  simp only [h0, h1, h2, h3, h4]

theorem hz : (![0, 0] : Fin 2 → Nat) = fun _ => 0 := funext fun a => by fin_cases a <;> rfl

/-- The printed index maps over the grid: the row-blocked windows move together, block `t` at block row `t`; the weight
    and bias windows stay at their one block. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_9.index t (0 : Fin 2) = win0_8.index t (0 : Fin 2) ∧ win0_9.index t (1 : Fin 2) = 0
    ∧ win0_8.index t (0 : Fin 2) ≤ 9 ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every block row is some point's. -/
theorem idx_onto : ∀ q0 : Fin 10, ∃ t : Fin cfg0.N, win0_8.index t = ![q0.val, 0] :=
  (by decide +kernel : ∀ q0 : Fin 10, ∃ t : Fin grid0.N, win0_8.index t = ![q0.val, 0])

/-- The node row that row `p` of point `t`'s block is. -/
def row (t : Fin cfg0.N) (p : Fin 5000) : Fin 50000 :=
  ⟨win0_8.index t (0 : Fin 2) * 5000 + p.val, by
    have h := (idx_facts t).2.2.2.2.2.2.1
    have := p.isLt
    omega⟩

/-! ## Where each block sits in its array -/

theorem emb8 (t : Fin cfg0.N) (p : Fin 5000) (q : Fin 40) : ((cfg0.win 8).blk t).view.emb (ix2 p q) = ix2 (row t p) q := by
  obtain ⟨-, -, -, -, -, -, -, e1, -⟩ := idx_facts t
  funext a; apply Fin.ext
  match a with
  | ⟨0, _⟩ => show win0_8.index t (0 : Fin 2) * 5000 + 1 * p.val = win0_8.index t (0 : Fin 2) * 5000 + p.val; omega
  | ⟨1, _⟩ => show win0_8.index t (1 : Fin 2) * 40 + 1 * q.val = q.val; omega

theorem emb9 (t : Fin cfg0.N) (p : Fin 5000) (q : Fin 40) : ((cfg0.win 9).blk t).view.emb (ix2 p q) = ix2 (row t p) q := by
  obtain ⟨-, -, -, -, e0, e1, -⟩ := idx_facts t
  funext a; apply Fin.ext
  match a with
  | ⟨0, _⟩ => show win0_9.index t (0 : Fin 2) * 5000 + 1 * p.val = win0_8.index t (0 : Fin 2) * 5000 + p.val; omega
  | ⟨1, _⟩ => show win0_9.index t (1 : Fin 2) * 40 + 1 * q.val = q.val; omega

/-! Each input block read through its window, for ANY contents `f` of the window's array. -/

theorem read0 (f : FVec Ideal S50000x128 .f32) (t : Fin cfg0.N) (p : Fin 5000) (j : Fin 128) :
    ((cfg0.win 0).blk t).view.read (Elt Ideal) f (ix2 p j) = f (ix2 (row t p) j) := by
  obtain ⟨e0, e1, -⟩ := idx_facts t
  show f (((cfg0.win 0).blk t).view.emb (ix2 p j)) = _
  refine congrArg f ?_
  funext a; apply Fin.ext
  match a with
  | ⟨0, _⟩ => show win0_0.index t (0 : Fin 2) * 5000 + 1 * p.val = win0_8.index t (0 : Fin 2) * 5000 + p.val; omega
  | ⟨1, _⟩ => show win0_0.index t (1 : Fin 2) * 128 + 1 * j.val = j.val; omega

theorem read1 (f : FVec Ideal S50000x128 .f32) (t : Fin cfg0.N) (p : Fin 5000) (j : Fin 128) :
    ((cfg0.win 1).blk t).view.read (Elt Ideal) f (ix2 p j) = f (ix2 (row t p) j) := by
  obtain ⟨-, -, e0, e1, -⟩ := idx_facts t
  show f (((cfg0.win 1).blk t).view.emb (ix2 p j)) = _
  refine congrArg f ?_
  funext a; apply Fin.ext
  match a with
  | ⟨0, _⟩ => show win0_1.index t (0 : Fin 2) * 5000 + 1 * p.val = win0_8.index t (0 : Fin 2) * 5000 + p.val; omega
  | ⟨1, _⟩ => show win0_1.index t (1 : Fin 2) * 128 + 1 * j.val = j.val; omega

theorem read2 (f : FVec Ideal S128x128 .f32) (t : Fin cfg0.N) (y : S128x128.Idx) :
    ((cfg0.win 2).blk t).view.read (Elt Ideal) f y = f y := by
  obtain ⟨-, -, -, -, -, -, -, -, e0, e1, -⟩ := idx_facts t
  show f (((cfg0.win 2).blk t).view.emb y) = _
  refine congrArg f ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem read3 (f : FVec Ideal S1x128 .f32) (t : Fin cfg0.N) (y : S1x128.Idx) :
    ((cfg0.win 3).blk t).view.read (Elt Ideal) f y = f y := by
  obtain ⟨-, -, -, -, -, -, -, -, -, -, e0, e1, -⟩ := idx_facts t
  show f (((cfg0.win 3).blk t).view.emb y) = _
  refine congrArg f ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem read4 (f : FVec Ideal S128x128 .f32) (t : Fin cfg0.N) (y : S128x128.Idx) :
    ((cfg0.win 4).blk t).view.read (Elt Ideal) f y = f y := by
  obtain ⟨-, -, -, -, -, -, -, -, -, -, -, -, e0, e1, -⟩ := idx_facts t
  show f (((cfg0.win 4).blk t).view.emb y) = _
  refine congrArg f ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem read5 (f : FVec Ideal S128x40 .f32) (t : Fin cfg0.N) (y : S128x40.Idx) :
    ((cfg0.win 5).blk t).view.read (Elt Ideal) f y = f y := by
  obtain ⟨-, -, -, -, -, -, -, -, -, -, -, -, -, -, e0, e1, -⟩ := idx_facts t
  show f (((cfg0.win 5).blk t).view.emb y) = _
  refine congrArg f ?_
  funext a; apply Fin.ext
  match a with
  | ⟨0, _⟩ => show win0_5.index t (0 : Fin 2) * 128 + 1 * (y 0).val = (y 0).val; omega
  | ⟨1, _⟩ => show win0_5.index t (1 : Fin 2) * 40 + 1 * (y 1).val = (y 1).val; omega

theorem read6 (f : FVec Ideal S1x40 .f32) (t : Fin cfg0.N) (y : S1x40.Idx) :
    ((cfg0.win 6).blk t).view.read (Elt Ideal) f y = f y := by
  obtain ⟨-, -, -, -, -, -, -, -, -, -, -, -, -, -, -, -, e0, e1, -⟩ := idx_facts t
  show f (((cfg0.win 6).blk t).view.emb y) = _
  refine congrArg f ?_
  funext a; apply Fin.ext
  match a with
  | ⟨0, _⟩ => show win0_6.index t (0 : Fin 2) * 1 + 1 * (y 0).val = (y 0).val; omega
  | ⟨1, _⟩ => show win0_6.index t (1 : Fin 2) * 40 + 1 * (y 1).val = (y 1).val; omega

theorem read7 (f : FVec Ideal S128x40 .f32) (t : Fin cfg0.N) (y : S128x40.Idx) :
    ((cfg0.win 7).blk t).view.read (Elt Ideal) f y = f y := by
  obtain ⟨-, -, -, -, -, -, -, -, -, -, -, -, -, -, -, -, -, -, e0, e1⟩ := idx_facts t
  show f (((cfg0.win 7).blk t).view.emb y) = _
  refine congrArg f ?_
  funext a; apply Fin.ext
  match a with
  | ⟨0, _⟩ => show win0_7.index t (0 : Fin 2) * 128 + 1 * (y 0).val = (y 0).val; omega
  | ⟨1, _⟩ => show win0_7.index t (1 : Fin 2) * 40 + 1 * (y 1).val = (y 1).val; omega

/-- The hidden rows of point `t`'s blocks are the whole arrays' hidden rows at the block's node rows. -/
theorem hid_blk (f0 f1 : FVec Ideal S50000x128 .f32) (f2 f4 : FVec Ideal S128x128 .f32) (f3 : FVec Ideal S1x128 .f32)
    (t : Fin cfg0.N) (p : Fin 5000) (k : Fin 128) :
    hid (((cfg0.win 0).blk t).view.read (Elt Ideal) f0) (((cfg0.win 1).blk t).view.read (Elt Ideal) f1)
        (((cfg0.win 2).blk t).view.read (Elt Ideal) f2) (((cfg0.win 4).blk t).view.read (Elt Ideal) f4)
        (((cfg0.win 3).blk t).view.read (Elt Ideal) f3) p k
      = hidden f0 f1 f2 f4 f3 (row t p) k :=
  hid_eq_hidden f0 f1 f2 f4 f3 _ _ _ _ _ (row t p) p
    (read0 f0 t p) (read1 f1 t p) (read2 f2 t) (read4 f4 t) (read3 f3 t) k

/-! ## What the body leaves at a point, for any contents of the arrays -/

theorem block8 (f0 f1 : FVec Ideal S50000x128 .f32) (f2 f4 : FVec Ideal S128x128 .f32) (f3 : FVec Ideal S1x128 .f32)
    (f5 : FVec Ideal S128x40 .f32) (t : Fin cfg0.N) (j : S5000x40.Idx) :
    k0_pay2 (((cfg0.win 0).blk t).view.read (Elt Ideal) f0) (((cfg0.win 1).blk t).view.read (Elt Ideal) f1)
        (((cfg0.win 2).blk t).view.read (Elt Ideal) f2) (((cfg0.win 4).blk t).view.read (Elt Ideal) f4)
        (((cfg0.win 3).blk t).view.read (Elt Ideal) f3) (((cfg0.win 5).blk t).view.read (Elt Ideal) f5) j
      = toNeighbours f0 f1 f2 f4 f3 f5 (((cfg0.win 8).blk t).view.emb j) := by
  obtain ⟨p, q, rfl⟩ : ∃ (p : Fin 5000) (q : Fin 40), j = ix2 p q := ⟨j 0, j 1, eq_ix2 j⟩
  rw [emb8 t p q]
  refine (pay2_apply _ _ _ _ _ _ p q).trans ?_
  unfold toNeighbours
  refine Finset.sum_congr rfl fun k _ => ?_
  exact congrArg₂ (· * ·) (hid_blk f0 f1 f2 f4 f3 t p k) (read5 f5 t (ix2 k q))

theorem block9 (f0 f1 : FVec Ideal S50000x128 .f32) (f2 f4 : FVec Ideal S128x128 .f32) (f3 : FVec Ideal S1x128 .f32)
    (f7 : FVec Ideal S128x40 .f32) (f6 : FVec Ideal S1x40 .f32) (t : Fin cfg0.N) (j : S5000x40.Idx) :
    k0_pay3 (((cfg0.win 0).blk t).view.read (Elt Ideal) f0) (((cfg0.win 1).blk t).view.read (Elt Ideal) f1)
        (((cfg0.win 2).blk t).view.read (Elt Ideal) f2) (((cfg0.win 4).blk t).view.read (Elt Ideal) f4)
        (((cfg0.win 3).blk t).view.read (Elt Ideal) f3) (((cfg0.win 7).blk t).view.read (Elt Ideal) f7)
        (((cfg0.win 6).blk t).view.read (Elt Ideal) f6) j
      = ownTerm f0 f1 f2 f4 f3 f7 f6 (((cfg0.win 9).blk t).view.emb j) := by
  obtain ⟨p, q, rfl⟩ : ∃ (p : Fin 5000) (q : Fin 40), j = ix2 p q := ⟨j 0, j 1, eq_ix2 j⟩
  rw [emb9 t p q]
  refine (pay3_apply _ _ _ _ _ _ _ p q).trans ?_
  unfold ownTerm
  refine congrArg₂ (· + ·) (Finset.sum_congr rfl fun k _ => ?_) (read6 f6 t (ix2 (0 : Fin 1) q))
  exact congrArg₂ (· * ·) (hid_blk f0 f1 f2 f4 f3 t p k) (read7 f7 t (ix2 k q))

/-! ## What each point writes back -/

/-- The first result's staging buffer after the body, cut to the block, for any contents of the arrays. -/
theorem out8_eq (f0 f1 : FVec Ideal S50000x128 .f32) (f2 f4 : FVec Ideal S128x128 .f32) (f3 : FVec Ideal S1x128 .f32)
    (f5 : FVec Ideal S128x40 .f32) (f6 : FVec Ideal S1x40 .f32) (f7 : FVec Ideal S128x40 .f32) (t : Fin cfg0.N) :
    (cfg0.win 8).cut (grid0.coords t)
      (out0_8 (((cfg0.win 0).blk t).view.read (Elt Ideal) f0) (((cfg0.win 1).blk t).view.read (Elt Ideal) f1)
        (((cfg0.win 2).blk t).view.read (Elt Ideal) f2) (((cfg0.win 3).blk t).view.read (Elt Ideal) f3)
        (((cfg0.win 4).blk t).view.read (Elt Ideal) f4) (((cfg0.win 5).blk t).view.read (Elt Ideal) f5)
        (((cfg0.win 6).blk t).view.read (Elt Ideal) f6) (((cfg0.win 7).blk t).view.read (Elt Ideal) f7))
      = ((cfg0.win 8).blk t).view.read (Elt Ideal) (toNeighbours f0 f1 f2 f4 f3 f5) := by
  unfold out0_8
  rw [View.canon_unit_zero hz]
  simp only [View.ld_unit_zero (S := S5000x128) hz, View.ld_unit_zero (S := S128x128) hz, View.ld_unit_zero (S := S1x128) hz,
    View.ld_unit_zero (S := S128x40) hz]
  funext j
  exact block8 f0 f1 f2 f4 f3 f5 t j

/-- The second result's staging buffer after the body, cut to the block, for any contents of the arrays. -/
theorem out9_eq (f0 f1 : FVec Ideal S50000x128 .f32) (f2 f4 : FVec Ideal S128x128 .f32) (f3 : FVec Ideal S1x128 .f32)
    (f5 : FVec Ideal S128x40 .f32) (f6 : FVec Ideal S1x40 .f32) (f7 : FVec Ideal S128x40 .f32) (t : Fin cfg0.N) :
    (cfg0.win 9).cut (grid0.coords t)
      (out0_9 (((cfg0.win 0).blk t).view.read (Elt Ideal) f0) (((cfg0.win 1).blk t).view.read (Elt Ideal) f1)
        (((cfg0.win 2).blk t).view.read (Elt Ideal) f2) (((cfg0.win 3).blk t).view.read (Elt Ideal) f3)
        (((cfg0.win 4).blk t).view.read (Elt Ideal) f4) (((cfg0.win 5).blk t).view.read (Elt Ideal) f5)
        (((cfg0.win 6).blk t).view.read (Elt Ideal) f6) (((cfg0.win 7).blk t).view.read (Elt Ideal) f7))
      = ((cfg0.win 9).blk t).view.read (Elt Ideal) (ownTerm f0 f1 f2 f4 f3 f7 f6) := by
  unfold out0_9
  rw [View.canon_unit_zero hz]
  simp only [View.ld_unit_zero (S := S5000x128) hz, View.ld_unit_zero (S := S128x128) hz, View.ld_unit_zero (S := S1x128) hz,
    View.ld_unit_zero (S := S128x40) hz, View.ld_unit_zero (S := S1x40) hz]
  funext j
  exact block9 f0 f1 f2 f4 f3 f7 f6 t j

variable (m : (ℓ : Loc nD τ sig) → Buf (Elt Ideal) ℓ)

theorem flushed8_eq (c : Dev nD) (t : Fin cfg0.N) :
    (dats m 0 c).flushed 8 t = ((cfg0.win 8).blk t).view.read (Elt Ideal)
      (toNeighbours (V m c (Pipeline.arrRef spec0 0)) (V m c (Pipeline.arrRef spec0 1)) (V m c (Pipeline.arrRef spec0 2))
        (V m c (Pipeline.arrRef spec0 4)) (V m c (Pipeline.arrRef spec0 3)) (V m c (Pipeline.arrRef spec0 5))) := by
  show (cfg0.win 8).cut (grid0.coords t) ((dats m 0 c).after 8 t) = _
  rw [after0_8]
  unfold iblk
  exact out8_eq (V m c (Pipeline.arrRef spec0 0)) (V m c (Pipeline.arrRef spec0 1)) (V m c (Pipeline.arrRef spec0 2))
    (V m c (Pipeline.arrRef spec0 4)) (V m c (Pipeline.arrRef spec0 3)) (V m c (Pipeline.arrRef spec0 5))
    (V m c (Pipeline.arrRef spec0 6)) (V m c (Pipeline.arrRef spec0 7)) t

theorem flushed9_eq (c : Dev nD) (t : Fin cfg0.N) :
    (dats m 0 c).flushed 9 t = ((cfg0.win 9).blk t).view.read (Elt Ideal)
      (ownTerm (V m c (Pipeline.arrRef spec0 0)) (V m c (Pipeline.arrRef spec0 1)) (V m c (Pipeline.arrRef spec0 2))
        (V m c (Pipeline.arrRef spec0 4)) (V m c (Pipeline.arrRef spec0 3)) (V m c (Pipeline.arrRef spec0 7))
        (V m c (Pipeline.arrRef spec0 6))) := by
  show (cfg0.win 9).cut (grid0.coords t) ((dats m 0 c).after 9 t) = _
  rw [after0_9]
  unfold iblk
  exact out9_eq (V m c (Pipeline.arrRef spec0 0)) (V m c (Pipeline.arrRef spec0 1)) (V m c (Pipeline.arrRef spec0 2))
    (V m c (Pipeline.arrRef spec0 4)) (V m c (Pipeline.arrRef spec0 3)) (V m c (Pipeline.arrRef spec0 5))
    (V m c (Pipeline.arrRef spec0 6)) (V m c (Pipeline.arrRef spec0 7)) t

/-! ## The blocks tile the arrays -/

theorem mem_blk8 (t : Fin cfg0.N) (i : S50000x40.Idx) :
    i ∈ ((cfg0.win 8).blk t).view.set ↔ ∀ a : Fin 2, win0_8.index t a * S5000x40.size a ≤ (i a).val ∧ (i a).val < win0_8.index t a * S5000x40.size a + S5000x40.size a := by
  show i ∈ ((View.whole main_v27_0).slice (win0_8.rect t)).set ↔ _
  rw [View.set_slice_whole, Rect.mem_set_unit]
  exact Iff.rfl

theorem mem_blk9 (t : Fin cfg0.N) (i : S50000x40.Idx) :
    i ∈ ((cfg0.win 9).blk t).view.set ↔ ∀ a : Fin 2, win0_9.index t a * S5000x40.size a ≤ (i a).val ∧ (i a).val < win0_9.index t a * S5000x40.size a + S5000x40.size a := by
  show i ∈ ((View.whole main_v27_1).slice (win0_9.rect t)).set ↔ _
  rw [View.set_slice_whole, Rect.mem_set_unit]
  exact Iff.rfl

theorem cover8 (i : S50000x40.Idx) : ∃ t : Fin cfg0.N, (cfg0.win 8).flush t = true ∧ i ∈ ((cfg0.win 8).blk t).view.set := by
  have hi0 : (i 0).val < 50000 := (i 0).isLt
  have hi1 : (i 1).val < 40 := (i 1).isLt
  obtain ⟨t, ht⟩ := idx_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 40 ≤ (i 1).val ∧ (i 1).val < win0_8.index t (1 : Fin 2) * 40 + 40; omega

theorem cover9 (i : S50000x40.Idx) : ∃ t : Fin cfg0.N, (cfg0.win 9).flush t = true ∧ i ∈ ((cfg0.win 9).blk t).view.set := by
  have hi0 : (i 0).val < 50000 := (i 0).isLt
  have hi1 : (i 1).val < 40 := (i 1).isLt
  obtain ⟨t, ht⟩ := idx_onto ⟨(i 0).val / 5000, by omega⟩
  have q0 : win0_8.index t (0 : Fin 2) = (i 0).val / 5000 := congrFun ht 0
  obtain ⟨-, -, -, -, e0, e1, -⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 40 ≤ (i 1).val ∧ (i 1).val < win0_9.index t (1 : Fin 2) * 40 + 40; omega

/-! ## The two result arrays after the region -/

theorem final8 (c : Dev nD) : (dats m 0 c).arrAt 8 cfg0.N
    = toNeighbours (V m c (Pipeline.arrRef spec0 0)) (V m c (Pipeline.arrRef spec0 1)) (V m c (Pipeline.arrRef spec0 2))
        (V m c (Pipeline.arrRef spec0 4)) (V m c (Pipeline.arrRef spec0 3)) (V m c (Pipeline.arrRef spec0 5)) :=
  (dats m 0 c).arrAt_eq_of_cover 8 _ (fun t _ => flushed8_eq m c t) cover8

theorem final9 (c : Dev nD) : (dats m 0 c).arrAt 9 cfg0.N
    = ownTerm (V m c (Pipeline.arrRef spec0 0)) (V m c (Pipeline.arrRef spec0 1)) (V m c (Pipeline.arrRef spec0 2))
        (V m c (Pipeline.arrRef spec0 4)) (V m c (Pipeline.arrRef spec0 3)) (V m c (Pipeline.arrRef spec0 7))
        (V m c (Pipeline.arrRef spec0 6)) :=
  (dats m 0 c).arrAt_eq_of_cover 9 _ (fun t _ => flushed9_eq m c t) cover9

end Cert.Sage.Blocks

end
-- ==== Proof.KernelValue.lean ====
/-
  The kernel program's result as one function of its arguments, on the extended reals.

  Around the region the host lines compute, from the edge list, the clamped in-degree of every node and its reciprocal,
  aggregate the node features along the edges and scale them by the reciprocal (the first layer's mean), and, after the
  region, aggregate the region's first result along the same edges, scale it the same way and add the region's second
  result. The region's two results are the functions of the arrays it found that `Blocks` names. Here the arrays the
  region found and the host lines after it are read back as the operations' composed terms of the arguments.
-/
import proofs.«138123_j30116310680318_2_alg».proof.Proof.Gen.KernelIdeal.Frame
import proofs.«138123_j30116310680318_2_alg».proof.Proof.Blocks
import Idealize.ShloMosaic.Lib.StableHlo.Run
import Idealize.ShloMosaic.Lib.ValueIdx

set_option maxRecDepth 16384

noncomputable section

namespace Cert.Sage.Kernel

open Idealize.ShloMosaic Idealize.ShloMosaic.TcCoe Idealize.ShloMosaic.ValueIdx Idealize.SL.Sem Idealize.ShloMosaic.StableHlo
open Cert.KernelIdeal Cert.KernelIdeal.Gen Cert.Sage.Blocks

/-! ## The host lines as functions of the arguments -/

/-- The edges' source words: row 0 of the edge list. -/
def srcWords (ei : IVec S2x800000 32) : IVec S800000 32 :=
  shapeCast S800000 (extractStridedSlice S1x800000 ![0, 0] ei slices_S2x800000_S1x800000_0_0) shapeCasts_S1x800000_S800000

/-- The edges' destination words: row 1 of the edge list. -/
def dstWords (ei : IVec S2x800000 32) : IVec S800000 32 :=
  shapeCast S800000 (extractStridedSlice S1x800000 ![1, 0] ei slices_S2x800000_S1x800000_1_0) shapeCasts_S1x800000_S800000

/-- The column of source words a gather reads: a negative word is first raised by the number of nodes. -/
def srcColOf (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The column of destination words a scatter reads. -/
def dstColOf (v3 : IVec S800000 32) : IVec S800000x1 32 := broadcastInDim S800000x1 ![0] bcast_S800000_S800000x1_0 v3

def zeroVec : FVec Ideal S50000 .f32 := broadcastInDim S50000 ![] bcast_S_S50000 (constant S_ .f32 0x00000000#32)
def oneVec : FVec Ideal S50000 .f32 := broadcastInDim S50000 ![] bcast_S_S50000 (constant S_ .f32 0x3F800000#32)
def oneEdges : FVec Ideal S800000 .f32 := broadcastInDim S800000 ![] bcast_S_S800000 (constant S_ .f32 0x3F800000#32)
def zero128 : FVec Ideal S50000x128 .f32 := broadcastInDim S50000x128 ![] bcast_S_S50000x128 (constant S_ .f32 0x00000000#32)
def zero40 : FVec Ideal S50000x40 .f32 := broadcastInDim S50000x40 ![] bcast_S_S50000x40 (constant S_ .f32 0x00000000#32)

/-- The in-degree of every node, at least one. -/
def degMax (v3 : IVec S800000 32) : FVec Ideal S50000 .f32 :=
  maximumf (Host.scatterAdd scatter_S50000_S800000x1_S800000_n_0_0_1 zeroVec (dstColOf v3) oneEdges) oneVec

/-- Its reciprocal. -/
def degInv (v3 : IVec S800000 32) : FVec Ideal S50000 .f32 := Host.divf oneVec (degMax v3)

/-- Rows of a 128-wide table summed along the edges into their destinations. -/
def agg128 (x : FVec Ideal S50000x128 .f32) (v1 v3 : IVec S800000 32) : FVec Ideal S50000x128 .f32 :=
  Host.scatterAdd scatter_S50000x128_S800000x1_S800000x128_1_0_0_1 zero128 (dstColOf v3)
    (Host.gather gather_S50000x128_S800000x1_S800000x128_1_0_n_n_0_1_1128 x (srcColOf v1))

/-- Rows of a 40-wide table summed along the edges into their destinations. -/
def agg40 (x : FVec Ideal S50000x40 .f32) (v1 v3 : IVec S800000 32) : FVec Ideal S50000x40 .f32 :=
  Host.scatterAdd scatter_S50000x40_S800000x1_S800000x40_1_0_0_1 zero40 (dstColOf v3)
    (Host.gather gather_S50000x40_S800000x1_S800000x40_1_0_n_n_0_1_140 x (srcColOf v1))

def spread128 (v : FVec Ideal S50000 .f32) : FVec Ideal S50000x128 .f32 :=
  broadcastInDim S50000x128 ![0, 1] bcast_S50000x1_S50000x128_0_1 (broadcastInDim S50000x1 ![0] bcast_S50000_S50000x1_0 v)

def spread40 (v : FVec Ideal S50000 .f32) : FVec Ideal S50000x40 .f32 :=
  broadcastInDim S50000x40 ![0, 1] bcast_S50000x1_S50000x40_0_1 (broadcastInDim S50000x1 ![0] bcast_S50000_S50000x1_0 v)

/-- The first layer's mean: the aggregated features times the reciprocal in-degree. -/
def mean1 (feat : FVec Ideal S50000x128 .f32) (ei : IVec S2x800000 32) : FVec Ideal S50000x128 .f32 :=
  mulf (agg128 feat (srcWords ei) (dstWords ei)) (spread128 (degInv (dstWords ei)))

def b1row (b1 : FVec Ideal S128 .f32) : FVec Ideal S1x128 .f32 := shapeCast S1x128 b1 shapeCasts_S128_S1x128
def b2row (b2 : FVec Ideal S40 .f32) : FVec Ideal S1x40 .f32 := shapeCast S1x40 b2 shapeCasts_S40_S1x40

/-- The host lines after the region, of the region's two results `P`, `R`, the edge words and the reciprocal in-degree. -/
def tail (P R : FVec Ideal S50000x40 .f32) (v1 v3 : IVec S800000 32) (v11 : FVec Ideal S50000 .f32) : FVec Ideal S50000x40 .f32 :=
  addf (mulf (agg40 P v1 v3) (spread40 v11)) R

/-- THE KERNEL PROGRAM'S RESULT as a function of its arguments. -/
def kout (feat : FVec Ideal S50000x128 .f32) (ei : IVec S2x800000 32) (W1l : FVec Ideal S128x128 .f32) (b1 : FVec Ideal S128 .f32)
    (W1r : FVec Ideal S128x128 .f32) (W2l : FVec Ideal S128x40 .f32) (b2 : FVec Ideal S40 .f32) (W2r : FVec Ideal S128x40 .f32) :
    FVec Ideal S50000x40 .f32 :=
  tail (toNeighbours (mean1 feat ei) feat W1l W1r (b1row b1) W2l) (ownTerm (mean1 feat ei) feat W1l W1r (b1row b1) W2r (b2row b2))
    (srcWords ei) (dstWords ei) (degInv (dstWords ei))

variable (m : (ℓ : Loc nD τ sig) → Buf (Elt Ideal) ℓ) (ρ : Dev nD → PrngReg)

/-! ## The arrays the region found -/

set_option maxHeartbeats 4000000 in
theorem found0 (c : Dev nD) : V m c (Pipeline.arrRef spec0 0)
    = mean1 (m ((c.tc : Thread nD τ).loc main_arg0)) (m ((c.tc : Thread nD τ).loc main_arg1)) := by
  show StableHlo.after hostOps0 (fun b => m (c, b)) (Proc.devRef .tc main_v24) = _
  after_results_simp
  rfl

set_option maxHeartbeats 4000000 in
theorem found3 (c : Dev nD) : V m c (Pipeline.arrRef spec0 3) = b1row (m ((c.tc : Thread nD τ).loc main_arg3)) := by
  show StableHlo.after hostOps0 (fun b => m (c, b)) (Proc.devRef .tc main_v25) = _
  after_results_simp
  rfl

set_option maxHeartbeats 4000000 in
theorem found6 (c : Dev nD) : V m c (Pipeline.arrRef spec0 6) = b2row (m ((c.tc : Thread nD τ).loc main_arg6)) := by
  show StableHlo.after hostOps0 (fun b => m (c, b)) (Proc.devRef .tc main_v26) = _
  after_results_simp
  rfl

theorem found1 (c : Dev nD) : V m c (Pipeline.arrRef spec0 1) = m ((c.tc : Thread nD τ).loc main_arg0) := V_main_arg0 m c
theorem found2 (c : Dev nD) : V m c (Pipeline.arrRef spec0 2) = m ((c.tc : Thread nD τ).loc main_arg2) := V_main_arg2 m c
theorem found4 (c : Dev nD) : V m c (Pipeline.arrRef spec0 4) = m ((c.tc : Thread nD τ).loc main_arg4) := V_main_arg4 m c
theorem found5 (c : Dev nD) : V m c (Pipeline.arrRef spec0 5) = m ((c.tc : Thread nD τ).loc main_arg5) := V_main_arg5 m c
theorem found7 (c : Dev nD) : V m c (Pipeline.arrRef spec0 7) = m ((c.tc : Thread nD τ).loc main_arg7) := V_main_arg7 m c

set_option maxHeartbeats 4000000 in
theorem words1 (c : Dev nD) : V0 m c (Proc.devRef .tc main_v1) = srcWords (m ((c.tc : Thread nD τ).loc main_arg1)) := by
  show StableHlo.after hostOps0 (fun b => m (c, b)) (Proc.devRef .tc main_v1) = _
  after_results_simp
  rfl

set_option maxHeartbeats 4000000 in
theorem words3 (c : Dev nD) : V0 m c (Proc.devRef .tc main_v3) = dstWords (m ((c.tc : Thread nD τ).loc main_arg1)) := by
  show StableHlo.after hostOps0 (fun b => m (c, b)) (Proc.devRef .tc main_v3) = _
  after_results_simp
  rfl

set_option maxHeartbeats 4000000 in
theorem recip11 (c : Dev nD) : V0 m c (Proc.devRef .tc main_v11) = degInv (dstWords (m ((c.tc : Thread nD τ).loc main_arg1))) := by
  show StableHlo.after hostOps0 (fun b => m (c, b)) (Proc.devRef .tc main_v11) = _
  after_results_simp
  rfl

/-! ## The host lines after the region -/

/-- What the lines after the region find at a buffer: the region's arrays as the run left them, the rest as the region found it. -/
abbrev atExit (c : Dev nD) (b : Ref sig .tc) :=
  Pipeline.withArrays (cfgs 0).spec c (V0 m c) (fun w => (dats m 0 c).arrAt w (cfgs 0).N) (Proc.devRef .tc b)

set_option maxHeartbeats 4000000 in
theorem tail_eq (c : Dev nD) : Pipeline.afterTail₀ cfgs (dats m) 0 (V0 m) [hostOps1] c main_v41
    = tail (atExit m c main_v27_0) (atExit m c main_v27_1) (atExit m c main_v1) (atExit m c main_v3) (atExit m c main_v11) := by
  unfold Pipeline.afterTail₀
  show StableHlo.after hostOps1 _ (Proc.devRef .tc main_v41) = _
  after_results_simp
  rfl

theorem exit8 (c : Dev nD) : atExit m c main_v27_0
    = toNeighbours (mean1 (m ((c.tc : Thread nD τ).loc main_arg0)) (m ((c.tc : Thread nD τ).loc main_arg1)))
        (m ((c.tc : Thread nD τ).loc main_arg0)) (m ((c.tc : Thread nD τ).loc main_arg2)) (m ((c.tc : Thread nD τ).loc main_arg4))
        (b1row (m ((c.tc : Thread nD τ).loc main_arg3))) (m ((c.tc : Thread nD τ).loc main_arg5)) := by
  refine (Pipeline.withArrays_arr spec0 launch0.win.arr_inj c _ _ 8).trans ((final8 m c).trans ?_)
  rw [found0 m c, found1 m c, found2 m c, found4 m c, found3 m c, found5 m c]

theorem exit9 (c : Dev nD) : atExit m c main_v27_1
    = ownTerm (mean1 (m ((c.tc : Thread nD τ).loc main_arg0)) (m ((c.tc : Thread nD τ).loc main_arg1)))
        (m ((c.tc : Thread nD τ).loc main_arg0)) (m ((c.tc : Thread nD τ).loc main_arg2)) (m ((c.tc : Thread nD τ).loc main_arg4))
        (b1row (m ((c.tc : Thread nD τ).loc main_arg3))) (m ((c.tc : Thread nD τ).loc main_arg7))
        (b2row (m ((c.tc : Thread nD τ).loc main_arg6))) := by
  refine (Pipeline.withArrays_arr spec0 launch0.win.arr_inj c _ _ 9).trans ((final9 m c).trans ?_)
  rw [found0 m c, found1 m c, found2 m c, found4 m c, found3 m c, found7 m c, found6 m c]

theorem exit1 (c : Dev nD) : atExit m c main_v1 = srcWords (m ((c.tc : Thread nD τ).loc main_arg1)) :=
  (Pipeline.withArrays_of_ne _ c (V0 m c) _ main_v1 (by exact (by decide : ∀ w, Pipeline.arrRef spec0 w ≠ main_v1))).trans (words1 m c)

theorem exit3 (c : Dev nD) : atExit m c main_v3 = dstWords (m ((c.tc : Thread nD τ).loc main_arg1)) :=
  (Pipeline.withArrays_of_ne _ c (V0 m c) _ main_v3 (by exact (by decide : ∀ w, Pipeline.arrRef spec0 w ≠ main_v3))).trans (words3 m c)

theorem exit11 (c : Dev nD) : atExit m c main_v11 = degInv (dstWords (m ((c.tc : Thread nD τ).loc main_arg1))) :=
  (Pipeline.withArrays_of_ne _ c (V0 m c) _ main_v11 (by exact (by decide : ∀ w, Pipeline.arrRef spec0 w ≠ main_v11))).trans (recip11 m c)

/-- The result buffer after the whole program. -/
theorem result_eq (c : Dev nD) : Pipeline.afterTail₀ cfgs (dats m) 0 (V0 m) [hostOps1] c main_v41
    = kout (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [tail_eq m c, exit8 m c, exit9 m c, exit1 m c, exit3 m c, exit11 m c]
  rfl

/-! ## The run -/

/-- Every weakly fair execution of the kernel program ends with its result at `kout` of the arguments and the arguments
    unchanged. -/
theorem run : θ_run defs (onTc (τ := τ) (main (F := Ideal))) ⟨m, fun _ => 0, ρ⟩ fun r => ∀ c : Dev nD,
      r.2.mem ((c.tc : Thread nD τ).loc main_v41)
        = kout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v41 (Pipeline.mem_restRefs_of main_v41 (by decide) (by decide))).trans (result_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.Sage.Kernel

end
-- ==== Proof.LibSegmentSum.lean ====
/-
  Accumulating scatters (jnp `.at[idx].add(v)`, `jax.ops.segment_sum`) read at an index, on the extended reals.

  A `stablehlo.scatter` whose body adds lands every update element on the operand element its start index names: the
  start is read SIGNED off the index array and is NOT clamped, and an update whose landing place is outside the operand
  is dropped. At the exact instance the result element is the operand's plus the sum of the updates landing on it.
  Three layouts are read here at coordinates, each as "operand plus the sum over the update's leading axis of the update
  where the index word names this element, zero elsewhere":
  * `rows`: operand `[N, C]`, indices `[R, 1]`, updates `[R, C]` — update row `e` is added to operand row `idx[e,0]`
    (a segment sum of rows);
  * `cells`: operand `[N]`, indices `[R, 1]`, updates `[R]` — update `e` is added to element `idx[e,0]` (a histogram,
    a degree count);
  * `pairs`: operand `[N, M]`, indices `[R, 2]`, updates `[R]` — update `e` is added to element `(idx[e,0], idx[e,1])`
    (a dense matrix assembled from coordinate triples).
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## Rows: `[N, C]` at `[R, 1]` by `[R, C]` -/

/-- The dimension numbers of a scatter of whole rows: the update's axis 1 is the window, the operand's axis 0 is the
    one the index names. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C M w : Nat}

/-- Where update element `(e, k)` lands: row `idx[e, 0]` read signed, column `k`; nowhere when that row is outside. -/
theorem rows_resultIdx? (wf : ScatterDims.WF ⟨2, ![N, C]⟩ ⟨2, ![R, 1]⟩ ⟨2, ![R, C]⟩ [1] [0] [0] 1)
    (idx : IVec ⟨2, ![R, 1]⟩ w) (e : Fin R) (k : Fin C) (r : Fin N) (c : Fin C) :
    (rowsDims N R C wf).resultIdx? (ix2 e k) idx = some (ix2 r c)
      ↔ (idx (ix2 e 0)).toInt = (r.val : Int) ∧ k = c := by
  have hs0 : (rowsDims N R C wf).start (ix2 e k) idx 0 = (idx (ix2 e 0)).toInt := by
    unfold ScatterDims.start
    rw [dif_pos (show (0 : Fin 2) ∈ (rowsDims N R C wf).scatterDimsToOperandDims from List.mem_singleton.mpr rfl)]
    congr 2
    funext b; refine Fin.ext ?_
    match b with
    | ⟨0, _⟩ => rfl
    | ⟨1, _⟩ => rfl
  have hs1 : (rowsDims N R C wf).start (ix2 e k) idx 1 = 0 := by
    unfold ScatterDims.start
    rw [dif_neg (show (1 : Fin 2) ∉ ([0] : List (Fin 2)) by decide)]
  have hw0 : (rowsDims N R C wf).window (ix2 e k) 0 = 0 := by
    unfold ScatterDims.window
    have hk : (rowsDims N R C wf).sKept = ([1] : List (Fin 2)) := rfl
    rw [dif_neg (hk ▸ (by decide : (0 : Fin 2) ∉ ([1] : List (Fin 2))))]
  have hw1 : (rowsDims N R C wf).window (ix2 e k) 1 = k.val := by
    unfold ScatterDims.window
    have hk : (rowsDims N R C wf).sKept = ([1] : List (Fin 2)) := rfl
    rw [dif_pos (hk ▸ (by decide : (1 : Fin 2) ∈ ([1] : List (Fin 2))))]
    rfl
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      rw [hs0, hw0] at hin0
      refine ⟨?_, Fin.ext ?_⟩
      · have : ((idx (ix2 e 0)).toInt + ((0 : ℕ) : Int)).toNat = r.val := h0
        omega
      · have : ((0 : Int) + (k.val : Int)).toNat = c.val := h1
        omega
    · exact absurd h (by simp)
  · rintro ⟨hr, rfl⟩
    have e0 : (rowsDims N R C wf).start (ix2 e k) idx 0 + (rowsDims N R C wf).window (ix2 e k) 0 = (r.val : Int) := by
      rw [hs0, hw0, hr]; omega
    have e1 : (rowsDims N R C wf).start (ix2 e k) idx 1 + (rowsDims N R C wf).window (ix2 e k) 1 = (k.val : Int) := by
      rw [hs1, hw1]; omega
    have hin : ∀ a : Fin 2, 0 ≤ (rowsDims N R C wf).start (ix2 e k) idx a + (rowsDims N R C wf).window (ix2 e k) a
        ∧ (rowsDims N R C wf).start (ix2 e k) idx a + (rowsDims N R C wf).window (ix2 e k) a < (⟨2, ![N, C]⟩ : Shape).size a := by
      intro a
      match a with
      | ⟨0, _⟩ =>
        have h : 0 ≤ (rowsDims N R C wf).start (ix2 e k) idx 0 + (rowsDims N R C wf).window (ix2 e k) 0
            ∧ (rowsDims N R C wf).start (ix2 e k) idx 0 + (rowsDims N R C wf).window (ix2 e k) 0 < (N : Int) := by
          rw [e0]; have := r.isLt; constructor <;> omega
        exact h
      | ⟨1, _⟩ =>
        have h : 0 ≤ (rowsDims N R C wf).start (ix2 e k) idx 1 + (rowsDims N R C wf).window (ix2 e k) 1
            ∧ (rowsDims N R C wf).start (ix2 e k) idx 1 + (rowsDims N R C wf).window (ix2 e k) 1 < (C : Int) := by
          rw [e1]; have := k.isLt; constructor <;> omega
        exact h
    rw [dif_pos hin]
    congr 1
    funext a; refine Fin.ext ?_
    match a with
    | ⟨0, _⟩ =>
      show ((rowsDims N R C wf).start (ix2 e k) idx 0 + (rowsDims N R C wf).window (ix2 e k) 0).toNat = r.val
      rw [e0]; omega
    | ⟨1, _⟩ =>
      show ((rowsDims N R C wf).start (ix2 e k) idx 1 + (rowsDims N R C wf).window (ix2 e k) 1).toNat = k.val
      rw [e1]; omega

/-- THE ROW SCATTER READ AT `(r, c)`: the operand's element plus the sum, over the update rows `e` whose index word
    `idx[e, 0]` (read signed) is `r`, of the update's element `(e, c)`. Rows whose index is negative or `≥ N` add
    nothing. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (r : Fin N) (c : Fin C) :
    Host.scatterAdd (rowsDims N R C wf) x idx upd (ix2 r c)
      = x (ix2 r c) + ∑ e : Fin R, if (idx (ix2 e 0)).toInt = (r.val : Int) then upd (ix2 e c) else 0 := by
  show Ideal.hostScatterAdd (rowsDims N R C wf) x idx upd (ix2 r c) = _
  unfold Ideal.hostScatterAdd
  congr 1
  rw [Finset.sum_filter, sum_idx2]
  refine Finset.sum_congr rfl fun e _ => ?_
  simp only [rows_resultIdx?]
  by_cases h : (idx (ix2 e 0)).toInt = (r.val : Int)
  · simp only [h, true_and, if_true]
    rw [Finset.sum_ite_eq' Finset.univ c fun k => upd (ix2 e k)]
    simp
  · simp [h]

/-! ## Cells: `[N]` at `[R, 1]` by `[R]` -/

/-- The dimension numbers of a scatter of single elements into a vector. -/
abbrev cellsDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update element `e` lands: element `idx[e, 0]` read signed; nowhere when that is outside. -/
theorem cells_resultIdx? (wf : ScatterDims.WF ⟨1, ![N]⟩ ⟨2, ![R, 1]⟩ ⟨1, ![R]⟩ [] [0] [0] 1)
    (idx : IVec ⟨2, ![R, 1]⟩ w) (e : Fin R) (r : Fin N) :
    (cellsDims N R wf).resultIdx? (ix1 e) idx = some (ix1 r) ↔ (idx (ix2 e 0)).toInt = (r.val : Int) := by
  have hs0 : (cellsDims N R wf).start (ix1 e) idx 0 = (idx (ix2 e 0)).toInt := by
    unfold ScatterDims.start
    rw [dif_pos (show (0 : Fin 1) ∈ (cellsDims N R wf).scatterDimsToOperandDims from List.mem_singleton.mpr rfl)]
    congr 2
    funext b; refine Fin.ext ?_
    match b with
    | ⟨0, _⟩ => rfl
    | ⟨1, _⟩ => rfl
  have hw0 : (cellsDims N R wf).window (ix1 e) 0 = 0 := by
    unfold ScatterDims.window
    have hk : (cellsDims N R wf).sKept = ([] : List (Fin 1)) := rfl
    rw [dif_neg (hk ▸ List.not_mem_nil)]
  unfold ScatterDims.resultIdx?
  constructor
  · intro h
    split at h
    · rename_i hin
      have h0 := congrArg (fun i => ((i (0 : Fin 1) : Fin _) : ℕ)) (Option.some.inj h)
      simp only [hs0, hw0] at h0
      have hin0 := hin 0
      rw [hs0, hw0] at hin0
      have : ((idx (ix2 e 0)).toInt + ((0 : ℕ) : Int)).toNat = r.val := h0
      omega
    · exact absurd h (by simp)
  · intro hr
    have e0 : (cellsDims N R wf).start (ix1 e) idx 0 + (cellsDims N R wf).window (ix1 e) 0 = (r.val : Int) := by
      rw [hs0, hw0, hr]; omega
    have hin : ∀ a : Fin 1, 0 ≤ (cellsDims N R wf).start (ix1 e) idx a + (cellsDims N R wf).window (ix1 e) a
        ∧ (cellsDims N R wf).start (ix1 e) idx a + (cellsDims N R wf).window (ix1 e) a < (⟨1, ![N]⟩ : Shape).size a := by
      intro a
      match a with
      | ⟨0, _⟩ =>
        have h : 0 ≤ (cellsDims N R wf).start (ix1 e) idx 0 + (cellsDims N R wf).window (ix1 e) 0
            ∧ (cellsDims N R wf).start (ix1 e) idx 0 + (cellsDims N R wf).window (ix1 e) 0 < (N : Int) := by
          rw [e0]; have := r.isLt; constructor <;> omega
        exact h
    rw [dif_pos hin]
    congr 1
    funext a; refine Fin.ext ?_
    match a with
    | ⟨0, _⟩ =>
      show ((cellsDims N R wf).start (ix1 e) idx 0 + (cellsDims N R wf).window (ix1 e) 0).toNat = r.val
      rw [e0]; omega

/-- A sum over the indices of a one-axis array is the sum over its coordinate. -/
theorem sum_ix1 {A : Type*} [AddCommMonoid A] {n : Nat} (g : (⟨1, ![n]⟩ : Shape).Idx → A) : ∑ i, g i = ∑ a : Fin n, g (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm g]
  rfl

/-- THE CELL SCATTER READ AT `r`: the operand's element plus the sum of the updates `e` whose index word `idx[e, 0]`
    (read signed) is `r`. With every update `1` this is the number of index words equal to `r`: a degree count. -/
theorem scatterAdd_cells_apply {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (r : Fin N) :
    Host.scatterAdd (cellsDims N R wf) x idx upd (ix1 r)
      = x (ix1 r) + ∑ e : Fin R, if (idx (ix2 e 0)).toInt = (r.val : Int) then upd (ix1 e) else 0 := by
  show Ideal.hostScatterAdd (cellsDims N R wf) x idx upd (ix1 r) = _
  unfold Ideal.hostScatterAdd
  congr 1
  rw [Finset.sum_filter, sum_ix1]
  refine Finset.sum_congr rfl fun e _ => ?_
  simp only [cells_resultIdx?]

/-! ## Pairs: `[N, M]` at `[R, 2]` by `[R]` -/

/-- The dimension numbers of a scatter of single elements into a matrix at (row, column) pairs. -/
abbrev pairsDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Where update element `e` lands: row `idx[e, 0]`, column `idx[e, 1]`, both read signed; nowhere when either is
    outside the matrix. -/
theorem pairs_resultIdx? (wf : ScatterDims.WF ⟨2, ![N, M]⟩ ⟨2, ![R, 2]⟩ ⟨1, ![R]⟩ [] [0, 1] [0, 1] 1)
    (idx : IVec ⟨2, ![R, 2]⟩ w) (e : Fin R) (r : Fin N) (c : Fin M) :
    (pairsDims N M R wf).resultIdx? (ix1 e) idx = some (ix2 r c)
      ↔ (idx (ix2 e 0)).toInt = (r.val : Int) ∧ (idx (ix2 e 1)).toInt = (c.val : Int) := by
  have hs0 : (pairsDims N M R wf).start (ix1 e) idx 0 = (idx (ix2 e 0)).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : (pairsDims N M R wf).start (ix1 e) idx 1 = (idx (ix2 e 1)).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hk : (pairsDims N M R wf).sKept = ([] : List (Fin 2)) := rfl
  have hw0 : (pairsDims N M R wf).window (ix1 e) 0 = 0 := by
    unfold ScatterDims.window
    rw [dif_neg (hk ▸ List.not_mem_nil)]
  have hw1 : (pairsDims N M R wf).window (ix1 e) 1 = 0 := by
    unfold ScatterDims.window
    rw [dif_neg (hk ▸ List.not_mem_nil)]
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      have hin1 := hin 1
      rw [hs0, hw0] at hin0
      rw [hs1, hw1] at hin1
      have g0 : ((idx (ix2 e 0)).toInt + ((0 : ℕ) : Int)).toNat = r.val := h0
      have g1 : ((idx (ix2 e 1)).toInt + ((0 : ℕ) : Int)).toNat = c.val := h1
      constructor <;> omega
    · exact absurd h (by simp)
  · rintro ⟨hr, hc⟩
    have e0 : (pairsDims N M R wf).start (ix1 e) idx 0 + (pairsDims N M R wf).window (ix1 e) 0 = (r.val : Int) := by
      rw [hs0, hw0, hr]; omega
    have e1 : (pairsDims N M R wf).start (ix1 e) idx 1 + (pairsDims N M R wf).window (ix1 e) 1 = (c.val : Int) := by
      rw [hs1, hw1, hc]; omega
    have hin : ∀ a : Fin 2, 0 ≤ (pairsDims N M R wf).start (ix1 e) idx a + (pairsDims N M R wf).window (ix1 e) a
        ∧ (pairsDims N M R wf).start (ix1 e) idx a + (pairsDims N M R wf).window (ix1 e) a < (⟨2, ![N, M]⟩ : Shape).size a := by
      intro a
      match a with
      | ⟨0, _⟩ =>
        have h : 0 ≤ (pairsDims N M R wf).start (ix1 e) idx 0 + (pairsDims N M R wf).window (ix1 e) 0
            ∧ (pairsDims N M R wf).start (ix1 e) idx 0 + (pairsDims N M R wf).window (ix1 e) 0 < (N : Int) := by
          rw [e0]; have := r.isLt; constructor <;> omega
        exact h
      | ⟨1, _⟩ =>
        have h : 0 ≤ (pairsDims N M R wf).start (ix1 e) idx 1 + (pairsDims N M R wf).window (ix1 e) 1
            ∧ (pairsDims N M R wf).start (ix1 e) idx 1 + (pairsDims N M R wf).window (ix1 e) 1 < (M : Int) := by
          rw [e1]; have := c.isLt; constructor <;> omega
        exact h
    rw [dif_pos hin]
    congr 1
    funext a; refine Fin.ext ?_
    match a with
    | ⟨0, _⟩ =>
      show ((pairsDims N M R wf).start (ix1 e) idx 0 + (pairsDims N M R wf).window (ix1 e) 0).toNat = r.val
      rw [e0]; omega
    | ⟨1, _⟩ =>
      show ((pairsDims N M R wf).start (ix1 e) idx 1 + (pairsDims N M R wf).window (ix1 e) 1).toNat = c.val
      rw [e1]; omega

/-- THE PAIR SCATTER READ AT `(r, c)`: the operand's element plus the sum of the updates `e` whose index pair
    `(idx[e, 0], idx[e, 1])` (read signed) is `(r, c)`: the dense matrix of a list of weighted coordinate pairs, repeated
    pairs accumulated. -/
theorem scatterAdd_pairs_apply {φ : FTy} (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ) (r : Fin N) (c : Fin M) :
    Host.scatterAdd (pairsDims N M R wf) x idx upd (ix2 r c)
      = x (ix2 r c) + ∑ e : Fin R,
          if (idx (ix2 e 0)).toInt = (r.val : Int) ∧ (idx (ix2 e 1)).toInt = (c.val : Int) then upd (ix1 e) else 0 := by
  show Ideal.hostScatterAdd (pairsDims N M R wf) x idx upd (ix2 r c) = _
  unfold Ideal.hostScatterAdd
  congr 1
  rw [Finset.sum_filter, sum_ix1]
  refine Finset.sum_congr rfl fun e _ => ?_
  simp only [pairs_resultIdx?]

end Idealize.ShloMosaic.SegmentSum

end
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibEdgeAggregate.lean ====
/-
  The host side of a mean aggregation over an edge list, read at an index on the extended reals.

  Edges are the rows of a column `D` of destination words and a column `S` of source words. An aggregation gathers
  row `S[e]` of a node table for every edge `e` (the source word read signed and clamped into the table) and adds it
  onto row `D[e]` of a zero table (the destination word read signed; an edge whose destination is outside the table
  is dropped). Read at `(i, c)` the result is zero plus the sum, over the edges directed into `i`, of the table at the
  edge's source row, column `c`. The in-degree is the same scatter of ones; its maximum with one is a positive real.
-/
import Idealize.ShloMosaic.PureOps.Ideal.Laws
import Idealize.ShloMosaic.Lib.IdealHost
import Idealize.ShloMosaic.Lib.ValueIdx
import Idealize.ShloMosaic.Lib.Pipeline.Value
import proofs.«138123_j30116310680318_2_alg».proof.Proof.LibSegmentSum
import proofs.«138123_j30116310680318_2_alg».proof.Proof.LibGatherRows
import proofs.«138123_j30116310680318_2_alg».proof.Proof.LibBroadcastInDim

noncomputable section

open scoped BigOperators

namespace Cert.Sage.Read

open Idealize.ShloMosaic Idealize.ShloMosaic.ValueIdx

variable {N E C w : ℕ}

/-- The node whose row edge `e` carries: its source word read signed and clamped into the table. -/
def srcRow (hN : 0 < N) (S : IVec ⟨2, ![E, 1]⟩ w) (e : Fin E) : Fin N :=
  ⟨min (S (ix2 e (0 : Fin 1))).toInt.toNat (N - 1), by omega⟩

/-- Edge `e` is directed into node `i`: its destination word, read signed, is `i`. -/
def into (D : IVec ⟨2, ![E, 1]⟩ w) (i : Fin N) (e : Fin E) : Prop := (D (ix2 e (0 : Fin 1))).toInt = (i.val : Int)

instance (D : IVec ⟨2, ![E, 1]⟩ w) (i : Fin N) : DecidablePred (into D i) := fun _ => inferInstanceAs (Decidable (_ = _))

/-- THE AGGREGATION READ AT `(i, c)`: zero plus the sum over the edges into `i` of the table at the edge's source row. -/
theorem aggregate_apply (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z x : FVec Ideal ⟨2, ![N, C]⟩ .f32) (hz : ∀ j, z j = 0) (D S : IVec ⟨2, ![E, 1]⟩ w) (i : Fin N) (c : Fin C) :
    Host.scatterAdd (SegmentSum.rowsDims N E C wfs) z D (Host.gather (Cert.LibGatherRows.rowsDims N C E wfg) x S) (ix2 i c)
      = (0 : EReal) + ∑ e : Fin E, if into D i e then x (ix2 (srcRow hN S e) c) else 0 := by
  rw [SegmentSum.scatterAdd_rows_apply, hz]
  congr 1
  refine Finset.sum_congr rfl fun e _ => ?_
  rw [Cert.LibGatherRows.gather_rows_apply hN]
  rfl

/-- A finite sum of ones and zeros is a natural number. -/
theorem sum_indicator_nat {ι : Type*} (s : Finset ι) (p : ι → Prop) [DecidablePred p] :
    ∃ n : ℕ, (∑ e ∈ s, if p e then (1 : EReal) else 0) = (n : EReal) := by
  classical
  induction s using Finset.induction_on with
  | empty => exact ⟨0, by simp⟩
  | insert a s ha ih =>
    obtain ⟨n, hn⟩ := ih
    rw [Finset.sum_insert ha, hn]
    by_cases hp : p a
    · exact ⟨1 + n, by rw [if_pos hp, Nat.cast_add, Nat.cast_one]⟩
    · exact ⟨n, by rw [if_neg hp, zero_add]⟩

/-- THE CLAMPED IN-DEGREE IS A POSITIVE REAL: ones scattered onto a zero vector at the destination words, then the
    maximum with one. -/
theorem degree_pos_real (wfc : ScatterDims.WF ⟨1, ![N]⟩ ⟨2, ![E, 1]⟩ ⟨1, ![E]⟩ [] [0] [0] 1)
    (z o : FVec Ideal ⟨1, ![N]⟩ .f32) (hz : ∀ j, z j = 0) (ho : ∀ j, o j = 1)
    (u : FVec Ideal ⟨1, ![E]⟩ .f32) (hu : ∀ j, u j = 1) (D : IVec ⟨2, ![E, 1]⟩ w) (i : Fin N) :
    ∃ r : ℝ, 0 < r ∧ maximumf (Host.scatterAdd (SegmentSum.cellsDims N E wfc) z D u) o (ix1 i) = (r : EReal) := by
  rw [maximumf_apply, SegmentSum.scatterAdd_cells_apply, hz, ho, zero_add]
  simp only [hu]
  obtain ⟨n, hn⟩ := sum_indicator_nat Finset.univ fun e : Fin E => (D (ix2 e 0)).toInt = (i.val : Int)
  rw [hn]
  refine ⟨max (n : ℝ) 1, lt_max_of_lt_right one_pos, ?_⟩
  rw [← EReal.coe_coe_eq_natCast, ← EReal.coe_one]
  exact (Monotone.map_max (f := ((↑) : ℝ → EReal)) fun a b h => EReal.coe_le_coe_iff.mpr h).symm

/-- A per-node vector spread along every lane of a table reads, at `(i, c)`, the vector at `i`. -/
theorem spread_apply {α : Type} (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (v : (⟨1, ![N]⟩ : Shape).Idx → α) (i : Fin N) (c : Fin C) :
    broadcastInDim ⟨2, ![N, C]⟩ (![0, 1] : Fin 2 → Fin 2) h2 (broadcastInDim ⟨2, ![N, 1]⟩ (![0] : Fin 1 → Fin 2) h1 v) (ix2 i c)
      = v (ix1 i) := by
  rw [Cert.Lib.BroadcastInDim.col_lanes_apply, Cert.Lib.BroadcastInDim.vec_col_apply]

end Cert.Sage.Read

end
-- ==== Proof.LibDenseAdjacency.lean ====
/-
  A weighted edge list applied to node features, two ways, on the extended reals.

  Given edges `e` with a source node, a destination node and a weight `n e ≥ 0`, and a feature `H s` per node:
  * the DENSE way first assembles the matrix `A d s = Σ_{e : dst e = d, src e = s} n e` (repeated edges accumulate) and
    then takes the product row by row, `Σ_s A d s · H s`;
  * the SPARSE way sums the messages directly, `Σ_{e : dst e = d} H (src e) · n e`.
  They agree. On the extended reals multiplication does not distribute over sums in general (`+∞` and `−∞` meet);
  it does over sums of NONNEGATIVE terms, which is what the weights are, so nothing is asked of `H`.
-/
import Mathlib.Data.EReal.Operations
import Mathlib.Algebra.BigOperators.Group.Finset.Basic
import Mathlib.Algebra.Order.BigOperators.Group.Finset

noncomputable section

open scoped BigOperators

namespace Idealize.ShloMosaic.DenseAdjacency

/-- A finite sum of nonnegative extended reals times a factor is the sum of the products. -/
theorem sum_mul_of_nonneg {ι : Type*} (s : Finset ι) (w : ι → EReal) (hw : ∀ i ∈ s, 0 ≤ w i) (h : EReal) :
    (∑ i ∈ s, w i) * h = ∑ i ∈ s, w i * h := by
  classical
  induction s using Finset.induction_on with
  | empty => simp
  | insert a s ha ih =>
    rw [Finset.sum_insert ha, Finset.sum_insert ha,
      EReal.right_distrib_of_nonneg (hw a (Finset.mem_insert_self a s))
        (Finset.sum_nonneg fun i hi => hw i (Finset.mem_insert_of_mem hi)),
      ih fun i hi => hw i (Finset.mem_insert_of_mem hi)]

variable {E N : Type*} [Fintype E] [Fintype N] [DecidableEq N]

/-- THE DENSE PRODUCT IS THE SPARSE SUM: row `d` of the assembled matrix against the features is the sum of the
    messages of the edges into `d`. -/
theorem dense_row_eq_edge_sum (src dst : E → N) (n : E → EReal) (hn : ∀ e, 0 ≤ n e) (H : N → EReal) (d : N) :
    ∑ s, (∑ e, if dst e = d ∧ src e = s then n e else 0) * H s = ∑ e, if dst e = d then H (src e) * n e else 0 := by
  have h1 : ∀ s, (∑ e, if dst e = d ∧ src e = s then n e else 0) * H s
      = ∑ e, (if dst e = d ∧ src e = s then n e else 0) * H s := fun s =>
    sum_mul_of_nonneg Finset.univ _ (fun e _ => by split <;> [exact hn e; exact le_refl 0]) (H s)
  simp only [h1]
  rw [Finset.sum_comm]
  refine Finset.sum_congr rfl fun e _ => ?_
  by_cases hd : dst e = d
  · simp only [hd, true_and, if_true]
    rw [Finset.sum_eq_single (src e)]
    · rw [if_pos rfl]; exact EReal.mul_comm _ _
    · intro s _ hs
      rw [if_neg (fun h => hs h.symm), zero_mul]
    · intro h; exact absurd (Finset.mem_univ _) h
  · simp only [hd, false_and, if_false, zero_mul, Finset.sum_const_zero]

/-- The same with the operand zero the two accumulations start from (`0 + x = x`), in the form the two programs
    print: a zero matrix updated at (destination, source) pairs, and a zero array of rows updated at destinations. -/
theorem zero_dense_row_eq_zero_edge_sum (src dst : E → N) (n : E → EReal) (hn : ∀ e, 0 ≤ n e) (H : N → EReal) (d : N) :
    ∑ s, ((0 : EReal) + ∑ e, if dst e = d ∧ src e = s then n e else 0) * H s
      = (0 : EReal) + ∑ e, if dst e = d then H (src e) * n e else 0 := by
  simp only [zero_add]
  exact dense_row_eq_edge_sum src dst n hn H d

end Idealize.ShloMosaic.DenseAdjacency

end
-- ==== Proof.LibTwoLayerMean.lean ====
/-
  The algebra that joins a two-layer mean-aggregating graph convolution computed two ways, on the extended reals.

  Nodes carry a row of features; an edge `e` delivers the row of its source node `s e` to every node `i` it is
  directed into (`pd i e`). A layer sums what arrives at each node, divides by a positive finite count `dm i`, and
  applies weights. The second layer's weights can be applied BEFORE the messages are summed (each node's hidden row
  is first multiplied by the weights, and the narrower products are what travel along the edges) or AFTER (the hidden
  rows travel and the mean is multiplied by the weights). The two agree because the hidden rows are nonnegative (they
  come out of a maximum with zero), so their sums distribute over any factor, and because a quotient by a positive real
  is a product with a nonnegative finite factor, which distributes over every sum of extended reals.
-/
import Idealize.ShloMosaic.PureOps.Ideal
import proofs.«138123_j30116310680318_2_alg».proof.Proof.LibDenseAdjacency

noncomputable section

open scoped BigOperators

namespace Cert.Sage.Algebra

open Idealize.ShloMosaic Idealize.ShloMosaic.DenseAdjacency

/-- A finite sum of extended reals times a nonnegative finite factor is the sum of the products. -/
theorem sum_mul_of_factor_nonneg {ι : Type*} (s : Finset ι) (y : ι → EReal) (x : EReal) (hx : 0 ≤ x) (hx' : x ≠ ⊤) :
    (∑ i ∈ s, y i) * x = ∑ i ∈ s, y i * x := by
  classical
  induction s using Finset.induction_on with
  | empty => simp
  | insert a s ha ih =>
    rw [Finset.sum_insert ha, Finset.sum_insert ha, EReal.right_distrib_of_nonneg_of_ne_top hx hx', ih]

/-- The quotient by a positive real is the product with its reciprocal, a nonnegative finite factor. -/
theorem div_pos_real (a : EReal) {r : ℝ} (hr : 0 < r) : Ideal.div a (r : EReal) = a * ((1 / r : ℝ) : EReal) :=
  Ideal.div_coe (ne_of_gt hr) a

theorem inv_factor_nonneg {r : ℝ} (hr : 0 < r) : (0 : EReal) ≤ ((1 / r : ℝ) : EReal) :=
  EReal.coe_nonneg.mpr (le_of_lt (one_div_pos.mpr hr))

section push
variable {N E K : Type*} [Fintype E] [Fintype K]

/-- WEIGHTS THROUGH THE AGGREGATION: the messages `∑ k, h (s e) k * w k` summed over the edges into a node and scaled
    by `x` are the scaled sums of the hidden entries, multiplied by the weights afterwards. The hidden entries are
    nonnegative; the factor `x` is nonnegative and finite; the weights are arbitrary. -/
theorem weights_through (p : E → Prop) [DecidablePred p] (s : E → N) (h : N → K → EReal) (hh : ∀ n k, 0 ≤ h n k)
    (w : K → EReal) (x : EReal) (hx : 0 ≤ x) (hx' : x ≠ ⊤) :
    ((0 : EReal) + ∑ e, if p e then ∑ k, h (s e) k * w k else 0) * x
      = ∑ k, (((0 : EReal) + ∑ e, if p e then h (s e) k else 0) * x) * w k := by
  simp only [zero_add]
  have h1 : (∑ e, if p e then ∑ k, h (s e) k * w k else 0) = ∑ k, (∑ e, if p e then h (s e) k else 0) * w k := by
    have h2 : ∀ k, (∑ e, if p e then h (s e) k else 0) * w k = ∑ e, (if p e then h (s e) k else 0) * w k := fun k =>
      sum_mul_of_nonneg Finset.univ _ (fun e _ => by split <;> [exact hh _ _; exact le_refl 0]) (w k)
    simp only [h2]
    rw [Finset.sum_comm]
    refine Finset.sum_congr rfl fun e _ => ?_
    by_cases hp : p e
    · simp only [hp, if_true]
    · simp only [hp, if_false, zero_mul, Finset.sum_const_zero]
  rw [h1, sum_mul_of_factor_nonneg _ _ x hx hx']
  refine Finset.sum_congr rfl fun k _ => ?_
  exact mul_right_comm _ _ _

end push

section layers
variable {N E K1 K C : Type*} [Fintype E] [Fintype K1] [Fintype K]

/-- The hidden row of a node when the first layer's mean is formed by multiplying with the reciprocal count. -/
def hiddenMul (Agg X : N → K1 → EReal) (dm : N → EReal) (W1l W1r : K1 → K → EReal) (b1 : K → EReal) (j : N) (k : K) : EReal :=
  max (∑ j', (Agg j j' * Ideal.div 1 (dm j)) * W1l j' k + b1 k + ∑ j', X j j' * W1r j' k) 0

/-- The hidden row of a node when the first layer's mean is formed by dividing by the count. -/
def hiddenDiv (Agg X : N → K1 → EReal) (dm : N → EReal) (W1l W1r : K1 → K → EReal) (b1 : K → EReal) (j : N) (k : K) : EReal :=
  max (∑ j', Ideal.div (Agg j j') (dm j) * W1l j' k + b1 k + ∑ j', X j j' * W1r j' k) 0

theorem hiddenMul_eq_hiddenDiv (Agg X : N → K1 → EReal) (dm : N → EReal) (hd : ∀ i, ∃ r : ℝ, 0 < r ∧ dm i = (r : EReal))
    (W1l W1r : K1 → K → EReal) (b1 : K → EReal) :
    hiddenMul Agg X dm W1l W1r b1 = hiddenDiv Agg X dm W1l W1r b1 := by
  funext j k
  obtain ⟨r, hr, hdr⟩ := hd j
  unfold hiddenMul hiddenDiv
  simp only [hdr, div_pos_real _ hr, one_mul]

theorem hiddenDiv_nonneg (Agg X : N → K1 → EReal) (dm : N → EReal) (W1l W1r : K1 → K → EReal) (b1 : K → EReal) (j : N) (k : K) :
    0 ≤ hiddenDiv Agg X dm W1l W1r b1 j k := le_max_right _ _

/-- THE TWO NETWORKS AGREE at node `i`, output column `c`: second-layer weights applied to each node's hidden row
    before the edges carry it (left) or to the aggregated mean (right). -/
theorem two_layers (pd : N → E → Prop) [∀ i, DecidablePred (pd i)] (s : E → N)
    (Agg X : N → K1 → EReal) (dm : N → EReal) (hd : ∀ i, ∃ r : ℝ, 0 < r ∧ dm i = (r : EReal))
    (W1l W1r : K1 → K → EReal) (b1 : K → EReal) (W2l W2r : K → C → EReal) (b2 : C → EReal) (i : N) (c : C) :
    ((0 : EReal) + ∑ e, if pd i e then (∑ k, hiddenMul Agg X dm W1l W1r b1 (s e) k * W2l k c) else 0) * Ideal.div 1 (dm i)
        + (∑ k, hiddenMul Agg X dm W1l W1r b1 i k * W2r k c + b2 c)
      = (∑ k, Ideal.div ((0 : EReal) + ∑ e, if pd i e then hiddenDiv Agg X dm W1l W1r b1 (s e) k else 0) (dm i) * W2l k c + b2 c)
        + ∑ k, hiddenDiv Agg X dm W1l W1r b1 i k * W2r k c := by
  rw [hiddenMul_eq_hiddenDiv Agg X dm hd]
  obtain ⟨r, hr, hdr⟩ := hd i
  simp only [hdr, div_pos_real _ hr, one_mul]
  rw [weights_through (pd i) s (hiddenDiv Agg X dm W1l W1r b1) (hiddenDiv_nonneg Agg X dm W1l W1r b1) (fun k => W2l k c)
    _ (inv_factor_nonneg hr) (EReal.coe_ne_top _)]
  rw [← add_assoc, add_right_comm]

end layers

end Cert.Sage.Algebra

end
-- ==== Proof.Reads.lean ====
/-
  The kernel program's result read at an entry, on the extended reals.

  With the edges into node `i` and each edge's source row named by the edge columns, the result at `(i, c)` is: the sum
  over the edges into `i` of the source node's hidden row times the neighbour weights' column `c`, times the reciprocal
  in-degree of `i`, plus `i`'s own hidden row times the own-node weights' column `c` plus the bias — the hidden rows those
  of the first layer with its mean formed by multiplying with the reciprocal in-degree.
-/
import proofs.«138123_j30116310680318_2_alg».proof.Proof.KernelValue
import proofs.«138123_j30116310680318_2_alg».proof.Proof.LibEdgeAggregate
import proofs.«138123_j30116310680318_2_alg».proof.Proof.LibTwoLayerMean
import Idealize.ShloMosaic.Lib.ValueLayout

set_option maxRecDepth 16384

noncomputable section

open scoped BigOperators

namespace Cert.Sage.Kernel

open Idealize.ShloMosaic Idealize.ShloMosaic.ValueIdx
open Cert.KernelIdeal Cert.KernelIdeal.Gen Cert.Sage.Blocks Cert.Sage.Read Cert.Sage.Algebra

/-! ## The constants and the spreads -/

theorem zeroVec_apply (j : S50000.Idx) : zeroVec j = 0 :=
  (Cert.Lib.BroadcastInDim.scalar_apply _ _ _ j).trans Ideal.ofBits_zero_f32
theorem oneVec_apply (j : S50000.Idx) : oneVec j = 1 :=
  (Cert.Lib.BroadcastInDim.scalar_apply _ _ _ j).trans Ideal.ofBits_one_f32
theorem oneEdges_apply (j : S800000.Idx) : oneEdges j = 1 :=
  (Cert.Lib.BroadcastInDim.scalar_apply _ _ _ j).trans Ideal.ofBits_one_f32
theorem zero128_apply (j : S50000x128.Idx) : zero128 j = 0 :=
  (Cert.Lib.BroadcastInDim.scalar_apply _ _ _ j).trans Ideal.ofBits_zero_f32
theorem zero40_apply (j : S50000x40.Idx) : zero40 j = 0 :=
  (Cert.Lib.BroadcastInDim.scalar_apply _ _ _ j).trans Ideal.ofBits_zero_f32

theorem spread128_apply (v : FVec Ideal S50000 .f32) (i : Fin 50000) (c : Fin 128) : spread128 v (ix2 i c) = v (ix1 i) :=
  spread_apply _ _ v i c
theorem spread40_apply (v : FVec Ideal S50000 .f32) (i : Fin 50000) (c : Fin 40) : spread40 v (ix2 i c) = v (ix1 i) :=
  spread_apply _ _ v i c

theorem b1row_apply (b1 : FVec Ideal S128 .f32) (k : Fin 128) : b1row b1 (ix2 (0 : Fin 1) k) = b1 (ix1 k) :=
  shapeCast_a_1a_apply b1 _ 0 k
theorem b2row_apply (b2 : FVec Ideal S40 .f32) (c : Fin 40) : b2row b2 (ix2 (0 : Fin 1) c) = b2 (ix1 c) :=
  shapeCast_a_1a_apply b2 _ 0 c

/-! ## The graph the edge list names -/

/-- Edge `e` is directed into node `i`. -/
abbrev edgeInto (ei : IVec S2x800000 32) (i : Fin 50000) (e : Fin 800000) : Prop := into (dstColOf (dstWords ei)) i e
/-- The node whose row edge `e` carries. -/
abbrev edgeSrc (ei : IVec S2x800000 32) (e : Fin 800000) : Fin 50000 := srcRow (by decide) (srcColOf (srcWords ei)) e
/-- The clamped in-degree of node `j`. -/
abbrev inDeg (ei : IVec S2x800000 32) (j : Fin 50000) : EReal := degMax (dstWords ei) (ix1 j)
/-- The features summed along the edges, at node `j`, column `j'`. -/
abbrev featSum (feat : FVec Ideal S50000x128 .f32) (ei : IVec S2x800000 32) (j : Fin 50000) (j' : Fin 128) : EReal :=
  agg128 feat (srcWords ei) (dstWords ei) (ix2 j j')
abbrev mat {a b : ℕ} (W : (⟨2, ![a, b]⟩ : Shape).Idx → EReal) (p : Fin a) (q : Fin b) : EReal := W (ix2 p q)
abbrev vec {a : ℕ} (v : (⟨1, ![a]⟩ : Shape).Idx → EReal) (p : Fin a) : EReal := v (ix1 p)

/-- The clamped in-degree is a positive real. -/
theorem degMax_pos_real (v3 : IVec S800000 32) (j : Fin 50000) : ∃ r : ℝ, 0 < r ∧ degMax v3 (ix1 j) = (r : EReal) :=
  @degree_pos_real 50000 800000 32 scatter_S50000_S800000x1_S800000_n_0_0_1_wf zeroVec oneVec zeroVec_apply oneVec_apply
    oneEdges oneEdges_apply (dstColOf v3) j

theorem deg_pos_real (ei : IVec S2x800000 32) (j : Fin 50000) : ∃ r : ℝ, 0 < r ∧ inDeg ei j = (r : EReal) :=
  degMax_pos_real (dstWords ei) j

/-- A host quotient of two arrays read at an index. -/
theorem hostDivf_apply {s : Shape} (a b : FVec Ideal s .f32) (i : s.Idx) : Host.divf a b i = Ideal.div (a i) (b i) := rfl

theorem degInv_apply (v3 : IVec S800000 32) (i : Fin 50000) : degInv v3 (ix1 i) = Ideal.div 1 (degMax v3 (ix1 i)) :=
  (hostDivf_apply oneVec (degMax v3) (ix1 i)).trans (congrArg (Ideal.div · (degMax v3 (ix1 i))) (oneVec_apply (ix1 i)))

theorem agg128_apply (x : FVec Ideal S50000x128 .f32) (v1 v3 : IVec S800000 32) (i : Fin 50000) (c : Fin 128) :
    agg128 x v1 v3 (ix2 i c)
      = (0 : EReal) + ∑ e : Fin 800000, if into (dstColOf v3) i e then x (ix2 (srcRow (by decide) (srcColOf v1) e) c) else 0 :=
  aggregate_apply (by decide) _ _ zero128 x zero128_apply (dstColOf v3) (srcColOf v1) i c

theorem agg40_apply (x : FVec Ideal S50000x40 .f32) (v1 v3 : IVec S800000 32) (i : Fin 50000) (c : Fin 40) :
    agg40 x v1 v3 (ix2 i c)
      = (0 : EReal) + ∑ e : Fin 800000, if into (dstColOf v3) i e then x (ix2 (srcRow (by decide) (srcColOf v1) e) c) else 0 :=
  aggregate_apply (by decide) _ _ zero40 x zero40_apply (dstColOf v3) (srcColOf v1) i c

/-! ## The kernel's hidden rows and its result -/

/-- A table scaled row by row by a per-node factor, read at `(r, j)`. -/
theorem mul_spread128 (A : FVec Ideal S50000x128 .f32) (v : FVec Ideal S50000 .f32) (r : Fin 50000) (j : Fin 128) :
    mulf A (spread128 v) (ix2 r j) = A (ix2 r j) * v (ix1 r) :=
  (mulf_apply A (spread128 v) (ix2 r j)).trans (congrArg (A (ix2 r j) * ·) (spread128_apply v r j))

theorem mean1_apply (feat : FVec Ideal S50000x128 .f32) (ei : IVec S2x800000 32) (r : Fin 50000) (j : Fin 128) :
    mean1 feat ei (ix2 r j) = featSum feat ei r j * Ideal.div 1 (inDeg ei r) :=
  (mul_spread128 (agg128 feat (srcWords ei) (dstWords ei)) (degInv (dstWords ei)) r j).trans
    (congrArg (agg128 feat (srcWords ei) (dstWords ei) (ix2 r j) * ·) (degInv_apply (dstWords ei) r))

theorem hidden_kernel (feat : FVec Ideal S50000x128 .f32) (ei : IVec S2x800000 32) (W1l W1r : FVec Ideal S128x128 .f32)
    (b1 : FVec Ideal S128 .f32) (r : Fin 50000) (k : Fin 128) :
    Cert.Sage.Blocks.hidden (mean1 feat ei) feat W1l W1r (b1row b1) r k
      = hiddenMul (featSum feat ei) (mat feat) (inDeg ei) (mat W1l) (mat W1r) (vec b1) r k := by
  unfold Cert.Sage.Blocks.hidden hiddenMul
  refine congrArg₂ max (congrArg₂ (· + ·) (congrArg₂ (· + ·) (Finset.sum_congr rfl fun j _ => ?_) (b1row_apply b1 k)) rfl) rfl
  exact congrArg (· * W1l (ix2 j k)) (mean1_apply feat ei r j)

/-- The region's first result read at `(r, c)`, for any mean table. -/
theorem toNeighbours_apply (M X : FVec Ideal S50000x128 .f32) (A B : FVec Ideal S128x128 .f32) (b : FVec Ideal S1x128 .f32)
    (W : FVec Ideal S128x40 .f32) (r : Fin 50000) (c : Fin 40) :
    toNeighbours M X A B b W (ix2 r c) = ∑ k : Fin 128, Cert.Sage.Blocks.hidden M X A B b r k * W (ix2 k c) := rfl

/-- The region's second result read at `(r, c)`, for any mean table. -/
theorem ownTerm_apply (M X : FVec Ideal S50000x128 .f32) (A B : FVec Ideal S128x128 .f32) (b : FVec Ideal S1x128 .f32)
    (W : FVec Ideal S128x40 .f32) (b' : FVec Ideal S1x40 .f32) (r : Fin 50000) (c : Fin 40) :
    ownTerm M X A B b W b' (ix2 r c) = ∑ k : Fin 128, Cert.Sage.Blocks.hidden M X A B b r k * W (ix2 k c) + b' (ix2 (0 : Fin 1) c) := rfl

/-- The host lines after the region read at `(i, c)`, for any two region results and any per-node factor. -/
theorem tail_apply (P R : FVec Ideal S50000x40 .f32) (v1 v3 : IVec S800000 32) (v11 : FVec Ideal S50000 .f32)
    (i : Fin 50000) (c : Fin 40) :
    tail P R v1 v3 v11 (ix2 i c)
      = ((0 : EReal) + ∑ e : Fin 800000, if into (dstColOf v3) i e then P (ix2 (srcRow (by decide) (srcColOf v1) e) c) else 0)
          * v11 (ix1 i) + R (ix2 i c) := by
  unfold tail
  exact (addf_apply _ _ _).trans (congrArg (· + R (ix2 i c))
    ((mulf_apply _ _ _).trans (congrArg₂ (· * ·) (agg40_apply P v1 v3 i c) (spread40_apply v11 i c))))

/-- THE KERNEL PROGRAM'S RESULT AT `(i, c)`. -/
theorem kout_apply (feat : FVec Ideal S50000x128 .f32) (ei : IVec S2x800000 32) (W1l : FVec Ideal S128x128 .f32) (b1 : FVec Ideal S128 .f32)
    (W1r : FVec Ideal S128x128 .f32) (W2l : FVec Ideal S128x40 .f32) (b2 : FVec Ideal S40 .f32) (W2r : FVec Ideal S128x40 .f32)
    (i : Fin 50000) (c : Fin 40) :
    kout feat ei W1l b1 W1r W2l b2 W2r (ix2 i c)
      = ((0 : EReal) + ∑ e : Fin 800000, if edgeInto ei i e then
            (∑ k : Fin 128, hiddenMul (featSum feat ei) (mat feat) (inDeg ei) (mat W1l) (mat W1r) (vec b1) (edgeSrc ei e) k * mat W2l k c)
          else 0) * Ideal.div 1 (inDeg ei i)
        + (∑ k : Fin 128, hiddenMul (featSum feat ei) (mat feat) (inDeg ei) (mat W1l) (mat W1r) (vec b1) i k * mat W2r k c + vec b2 c) := by
  unfold kout
  refine (tail_apply _ _ _ _ _ i c).trans ?_
  refine congrArg₂ (· + ·) (congrArg₂ (· * ·) (congrArg ((0 : EReal) + ·) (Finset.sum_congr rfl fun e _ => ?_))
    (degInv_apply (dstWords ei) i)) ?_
  · refine if_congr Iff.rfl ((toNeighbours_apply _ _ _ _ _ _ _ c).trans ?_) rfl
    exact Finset.sum_congr rfl fun k _ => congrArg (· * W2l (ix2 k c)) (hidden_kernel feat ei W1l W1r b1 _ k)
  · refine (ownTerm_apply _ _ _ _ _ _ _ i c).trans ?_
    exact congrArg₂ (· + ·) (Finset.sum_congr rfl fun k _ => congrArg (· * W2r (ix2 k c)) (hidden_kernel feat ei W1l W1r b1 i k))
      (b2row_apply b2 c)

end Cert.Sage.Kernel

end
-- ==== Proof.RefValue.lean ====
/-
  The reference program's result as one function of its arguments, and read at an entry, on the extended reals.

  The reference applies the same layer twice: the rows of a table are summed along the edges into their destinations,
  divided by the clamped in-degree, multiplied by the neighbour weights; the bias and the table's own rows times the
  own-node weights are added. Between the layers the result is clamped at zero from below. Its edge columns, its
  in-degree and its aggregation are, operation by operation, the kernel program's host lines, so they are stated with
  the same functions; what differs is that the mean is a quotient and that the second layer aggregates the hidden rows
  themselves.
-/
import proofs.«138123_j30116310680318_2_alg».proof.Proof.Gen.ReferenceIdeal.Run
import proofs.«138123_j30116310680318_2_alg».proof.Proof.Reads
import proofs.«138123_j30116310680318_2_alg».proof.Proof.LibPlainDot

set_option maxRecDepth 16384

noncomputable section

open scoped BigOperators

namespace Cert.Sage.Ref

open Idealize.ShloMosaic Idealize.ShloMosaic.TcCoe Idealize.ShloMosaic.ValueIdx Idealize.SL.Sem
open Cert.ReferenceIdeal Cert.ReferenceIdeal.Gen Cert.Sage.Read Cert.Sage.Algebra
open Cert.Sage.Kernel (srcWords dstWords agg128 degMax spread128 zero128 edgeInto edgeSrc inDeg featSum mat vec)

/-- A bias vector laid along every node row of a 128-wide table. -/
def biasRows128 (b : FVec Ideal S128 .f32) : FVec Ideal S50000x128 .f32 :=
  broadcastInDim S50000x128 ![0, 1] bcast_S1x128_S50000x128_0_1 (broadcastInDim S1x128 ![1] bcast_S128_S1x128_1 b)

/-- A bias vector laid along every node row of a 40-wide table. -/
def biasRows40 (b : FVec Ideal S40 .f32) : FVec Ideal S50000x40 .f32 :=
  broadcastInDim S50000x40 ![0, 1] bcast_S1x40_S50000x40_0_1 (broadcastInDim S1x40 ![1] bcast_S40_S1x40_1 b)

/-- The mean of a table's rows over each node's incoming edges: the aggregation divided by the clamped in-degree. -/
def meanOf (x : FVec Ideal S50000x128 .f32) (ei : IVec S2x800000 32) : FVec Ideal S50000x128 .f32 :=
  Host.divf (agg128 x (srcWords ei) (dstWords ei)) (spread128 (degMax (dstWords ei)))

/-- The hidden table: the first layer, clamped at zero. -/
def hiddenArr (feat : FVec Ideal S50000x128 .f32) (ei : IVec S2x800000 32) (W1l : FVec Ideal S128x128 .f32) (b1 : FVec Ideal S128 .f32)
    (W1r : FVec Ideal S128x128 .f32) : FVec Ideal S50000x128 .f32 :=
  maximumf (addf (addf (Host.dotGeneral dot_S50000x128_S128x128_S50000x128_1_0_0_1_n_n none (meanOf feat ei) W1l) (biasRows128 b1))
    (Host.dotGeneral dot_S50000x128_S128x128_S50000x128_1_0_0_1_n_n none feat W1r)) zero128

/-- THE REFERENCE PROGRAM'S RESULT as a function of its arguments. -/
def rout (feat : FVec Ideal S50000x128 .f32) (ei : IVec S2x800000 32) (W1l : FVec Ideal S128x128 .f32) (b1 : FVec Ideal S128 .f32)
    (W1r : FVec Ideal S128x128 .f32) (W2l : FVec Ideal S128x40 .f32) (b2 : FVec Ideal S40 .f32) (W2r : FVec Ideal S128x40 .f32) :
    FVec Ideal S50000x40 .f32 :=
  addf (addf (Host.dotGeneral dot_S50000x128_S128x40_S50000x40_1_0_0_1_n_n none (meanOf (hiddenArr feat ei W1l b1 W1r) ei) W2l) (biasRows40 b2))
    (Host.dotGeneral dot_S50000x128_S128x40_S50000x40_1_0_0_1_n_n none (hiddenArr feat ei W1l b1 W1r) W2r)

/-- The generated run's result term is that function of the argument arrays. -/
theorem res_eq (m : (ℓ : Loc nD τ sig) → Buf (Elt Ideal) ℓ) (c : Dev nD) :
    Cert.ReferenceIdeal.Value.res_main_v54 m c
      = rout (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v54
  rfl

/-! ## Read at an entry -/

theorem biasRows128_apply (b : FVec Ideal S128 .f32) (r : Fin 50000) (k : Fin 128) : biasRows128 b (ix2 r k) = b (ix1 k) :=
  (Cert.Lib.BroadcastInDim.row_rows_apply _ _ r k).trans (Cert.Lib.BroadcastInDim.vec_row_apply _ b 0 k)

theorem biasRows40_apply (b : FVec Ideal S40 .f32) (r : Fin 50000) (k : Fin 40) : biasRows40 b (ix2 r k) = b (ix1 k) :=
  (Cert.Lib.BroadcastInDim.row_rows_apply _ _ r k).trans (Cert.Lib.BroadcastInDim.vec_row_apply _ b 0 k)

/-- A table divided row by row by a per-node divisor, read at `(r, j)`. -/
theorem div_spread128 (A : FVec Ideal S50000x128 .f32) (v : FVec Ideal S50000 .f32) (r : Fin 50000) (j : Fin 128) :
    Host.divf A (spread128 v) (ix2 r j) = Ideal.div (A (ix2 r j)) (v (ix1 r)) := by
  exact (Cert.Sage.Kernel.hostDivf_apply A (spread128 v) (ix2 r j)).trans
    (congrArg (Ideal.div (A (ix2 r j)) ·) (Cert.Sage.Kernel.spread128_apply v r j))

theorem meanOf_apply (x : FVec Ideal S50000x128 .f32) (ei : IVec S2x800000 32) (r : Fin 50000) (j : Fin 128) :
    meanOf x ei (ix2 r j) = Ideal.div (agg128 x (srcWords ei) (dstWords ei) (ix2 r j)) (inDeg ei r) :=
  div_spread128 (agg128 x (srcWords ei) (dstWords ei)) (degMax (dstWords ei)) r j

/-- A layer's table read at `(r, k)`, for any mean table `M`, own table `X` and bias rows `Br`:
    `M ⬝ A + Br + X ⬝ B`. -/
theorem layer128_apply (M X Br : FVec Ideal S50000x128 .f32) (A B : FVec Ideal S128x128 .f32) (r : Fin 50000) (k : Fin 128) :
    addf (addf (Host.dotGeneral dot_S50000x128_S128x128_S50000x128_1_0_0_1_n_n none M A) Br)
        (Host.dotGeneral dot_S50000x128_S128x128_S50000x128_1_0_0_1_n_n none X B) (ix2 r k)
      = ∑ j : Fin 128, M (ix2 r j) * A (ix2 j k) + Br (ix2 r k) + ∑ j : Fin 128, X (ix2 r j) * B (ix2 j k) :=
  (addf_apply _ _ _).trans (congrArg₂ (· + ·)
    ((addf_apply _ _ _).trans (congrArg (· + Br (ix2 r k)) (Cert.Lib.PlainDot.dotGeneral_plain_apply none _ M A r k)))
    (Cert.Lib.PlainDot.dotGeneral_plain_apply none _ X B r k))

theorem layer40_apply (M X : FVec Ideal S50000x128 .f32) (Br : FVec Ideal S50000x40 .f32) (A B : FVec Ideal S128x40 .f32)
    (r : Fin 50000) (k : Fin 40) :
    addf (addf (Host.dotGeneral dot_S50000x128_S128x40_S50000x40_1_0_0_1_n_n none M A) Br)
        (Host.dotGeneral dot_S50000x128_S128x40_S50000x40_1_0_0_1_n_n none X B) (ix2 r k)
      = ∑ j : Fin 128, M (ix2 r j) * A (ix2 j k) + Br (ix2 r k) + ∑ j : Fin 128, X (ix2 r j) * B (ix2 j k) :=
  (addf_apply _ _ _).trans (congrArg₂ (· + ·)
    ((addf_apply _ _ _).trans (congrArg (· + Br (ix2 r k)) (Cert.Lib.PlainDot.dotGeneral_plain_apply none _ M A r k)))
    (Cert.Lib.PlainDot.dotGeneral_plain_apply none _ X B r k))

/-- The hidden table's entry is the first layer's hidden row with its mean a quotient. -/
theorem hiddenArr_apply (feat : FVec Ideal S50000x128 .f32) (ei : IVec S2x800000 32) (W1l : FVec Ideal S128x128 .f32)
    (b1 : FVec Ideal S128 .f32) (W1r : FVec Ideal S128x128 .f32) (r : Fin 50000) (k : Fin 128) :
    hiddenArr feat ei W1l b1 W1r (ix2 r k)
      = hiddenDiv (featSum feat ei) (mat feat) (inDeg ei) (mat W1l) (mat W1r) (vec b1) r k := by
  unfold hiddenArr hiddenDiv
  refine (maximumf_apply _ _ _).trans (congrArg₂ max ((layer128_apply _ _ _ _ _ r k).trans ?_) (Cert.Sage.Kernel.zero128_apply _))
  refine congrArg₂ (· + ·) (congrArg₂ (· + ·) (Finset.sum_congr rfl fun j _ => ?_) (biasRows128_apply b1 r k)) rfl
  exact congrArg (· * W1l (ix2 j k)) (meanOf_apply feat ei r j)

/-- THE REFERENCE PROGRAM'S RESULT AT `(i, c)`. -/
theorem rout_apply (feat : FVec Ideal S50000x128 .f32) (ei : IVec S2x800000 32) (W1l : FVec Ideal S128x128 .f32) (b1 : FVec Ideal S128 .f32)
    (W1r : FVec Ideal S128x128 .f32) (W2l : FVec Ideal S128x40 .f32) (b2 : FVec Ideal S40 .f32) (W2r : FVec Ideal S128x40 .f32)
    (i : Fin 50000) (c : Fin 40) :
    rout feat ei W1l b1 W1r W2l b2 W2r (ix2 i c)
      = (∑ k : Fin 128, Ideal.div ((0 : EReal) + ∑ e : Fin 800000, if edgeInto ei i e then
            hiddenDiv (featSum feat ei) (mat feat) (inDeg ei) (mat W1l) (mat W1r) (vec b1) (edgeSrc ei e) k else 0) (inDeg ei i) * mat W2l k c
          + vec b2 c)
        + ∑ k : Fin 128, hiddenDiv (featSum feat ei) (mat feat) (inDeg ei) (mat W1l) (mat W1r) (vec b1) i k * mat W2r k c := by
  unfold rout
  refine (layer40_apply _ _ _ _ _ i c).trans ?_
  refine congrArg₂ (· + ·) (congrArg₂ (· + ·) (Finset.sum_congr rfl fun k _ => ?_) (biasRows40_apply b2 i c))
    (Finset.sum_congr rfl fun k _ => congrArg (· * W2r (ix2 k c)) (hiddenArr_apply feat ei W1l b1 W1r i k))
  refine congrArg (· * W2l (ix2 k c)) ((meanOf_apply _ ei i k).trans (congrArg (Ideal.div · (inDeg ei i)) ?_))
  refine (Cert.Sage.Kernel.agg128_apply _ _ _ i k).trans (congrArg ((0 : EReal) + ·) (Finset.sum_congr rfl fun e _ => ?_))
  exact if_congr Iff.rfl (hiddenArr_apply feat ei W1l b1 W1r _ k) rfl

end Cert.Sage.Ref

end
-- ==== Proof.lean ====
/-
  A two-layer mean-aggregating graph convolution (50000 nodes, 800000 edges, widths 128 → 128 → 40) computed two ways, equal on
  the extended reals.

  Both programs sum each node's incoming messages and divide by its in-degree (at least one). The reference does this
  twice on 128-wide rows: the features, then the hidden rows `max (mean ⬝ W1l + b1 + x ⬝ W1r) 0`, and applies the second
  layer's weights to the aggregated mean. The kernel program forms the first mean by multiplying with the reciprocal
  in-degree, computes in one pass over blocks of node rows the hidden rows and their two products with the second layer's
  weights, and aggregates the 40-wide product `hidden ⬝ W2l` instead of the hidden rows. The two results agree entry by
  entry: the in-degree is a positive real, so dividing by it is multiplying with a nonnegative finite factor, which
  distributes over every sum; and the hidden rows are nonnegative, so their sums over the incoming edges distribute over
  the weights whatever those are (`two_layers`). No finiteness of the inputs is used.

  The kernel program's result as a function of its arguments is `Kernel.kout` (the region's two result arrays from the
  blocks each grid point writes back, the host lines before and after the region read back as their composed terms);
  the reference's is `Ref.rout`; each is read at an entry in terms of the same edge set, source rows, in-degree and
  aggregated features.
-/
import proofs.«138123_j30116310680318_2_alg».proof.Defs
import proofs.«138123_j30116310680318_2_alg».proof.Proof.Gen.Kernel
import proofs.«138123_j30116310680318_2_alg».proof.Proof.Gen.Kernel.Skeleton
import proofs.«138123_j30116310680318_2_alg».proof.Proof.Gen.Kernel.Launch
import proofs.«138123_j30116310680318_2_alg».proof.Proof.Gen.Kernel.Points
import proofs.«138123_j30116310680318_2_alg».proof.Proof.Gen.Kernel.Frame
import proofs.«138123_j30116310680318_2_alg».proof.Proof.Gen.KernelIdeal
import proofs.«138123_j30116310680318_2_alg».proof.Proof.Gen.KernelIdeal.Skeleton
import proofs.«138123_j30116310680318_2_alg».proof.Proof.Gen.KernelIdeal.Launch
import proofs.«138123_j30116310680318_2_alg».proof.Proof.Gen.KernelIdeal.Points
import proofs.«138123_j30116310680318_2_alg».proof.Proof.Gen.KernelIdeal.Frame
import proofs.«138123_j30116310680318_2_alg».proof.Proof.Gen.ReferenceIdeal
import proofs.«138123_j30116310680318_2_alg».proof.Proof.Gen.ReferenceIdeal.Run
import proofs.«138123_j30116310680318_2_alg».proof.Proof.Gen.Pre_finite_inputs
import proofs.«138123_j30116310680318_2_alg».proof.Proof.KernelValue
import proofs.«138123_j30116310680318_2_alg».proof.Proof.Reads
import proofs.«138123_j30116310680318_2_alg».proof.Proof.RefValue
import proofs.«138123_j30116310680318_2_alg».proof.Proof.LibTwoLayerMean
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- THE TWO RESULTS ARE ONE FUNCTION of the arguments, whatever the arguments hold. -/
theorem out_eq (feat : FVec Ideal Cert.KernelIdeal.S50000x128 .f32) (ei : IVec Cert.KernelIdeal.S2x800000 32)
    (W1l : FVec Ideal Cert.KernelIdeal.S128x128 .f32) (b1 : FVec Ideal Cert.KernelIdeal.S128 .f32)
    (W1r : FVec Ideal Cert.KernelIdeal.S128x128 .f32) (W2l : FVec Ideal Cert.KernelIdeal.S128x40 .f32)
    (b2 : FVec Ideal Cert.KernelIdeal.S40 .f32) (W2r : FVec Ideal Cert.KernelIdeal.S128x40 .f32) :
    Cert.Sage.Kernel.kout feat ei W1l b1 W1r W2l b2 W2r = Cert.Sage.Ref.rout feat ei W1l b1 W1r W2l b2 W2r := by
  funext idx
  obtain ⟨i, c, rfl⟩ : ∃ (i : Fin 50000) (c : Fin 40), idx = ix2 i c := ⟨idx 0, idx 1, eq_ix2 idx⟩
  rw [Cert.Sage.Kernel.kout_apply, Cert.Sage.Ref.rout_apply]
  exact Cert.Sage.Algebra.two_layers (Cert.Sage.Kernel.edgeInto ei) (Cert.Sage.Kernel.edgeSrc ei)
    (Cert.Sage.Kernel.featSum feat ei) (Cert.Sage.Kernel.mat feat) (Cert.Sage.Kernel.inDeg ei) (Cert.Sage.Kernel.deg_pos_real ei)
    (Cert.Sage.Kernel.mat W1l) (Cert.Sage.Kernel.mat W1r) (Cert.Sage.Kernel.vec b1)
    (Cert.Sage.Kernel.mat W2l) (Cert.Sage.Kernel.mat W2r) (Cert.Sage.Kernel.vec b2) i c

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the same result array. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.Sage.Ref.res_eq m' c).trans ?_
  obtain ⟨h0, h1, h2, h3, h4, h5, h6, h7⟩ := hagree c
  rw [h0, h1, h2, h3, h4, h5, h6, h7]
  exact (out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
